-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S160x64 : Shape := ⟨2, ![160, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S128x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S800000x32 .f32) (main_arg3 : FVec F S160x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S160x64 .f32 := Host.absf main_arg3
  let main_cst_2 : FVec F S_ .f32 := constant S_ .f32 0x7F800000#32
  let main_v10 : FVec F S160x64 .f32 := broadcastInDim S160x64 ![] bcast_S_S160x64 main_cst_2
  let main_v11 : IVec S160x64 1 := cmpf .olt main_v9 main_v10
  let main_c_3 : IVec S_ 1 := constantI S_ 1 1#1
  let main_v12 : IVec S_ 1 := (fun x v => Host.reduce IntOp.andi x v reducesTo_S160x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S160x64 : Shape := ⟨2, ![160, 64]⟩
abbrev S64 : Shape := ⟨1, ![64]⟩
abbrev S64x64 : Shape := ⟨2, ![64, 64]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S32x64 : Shape := ⟨2, ![32, 64]⟩
abbrev S1x64 : Shape := ⟨2, ![1, 64]⟩
abbrev S5000x64 : Shape := ⟨2, ![5000, 64]⟩
abbrev S5000x32 : Shape := ⟨2, ![5000, 32]⟩

abbrev nBuf : Space → Nat
  | .hbm => 55
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S160x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S64x64, .f32⟩
  | .hbm, ⟨34, _⟩ => ⟨S64x64, .f32⟩
  | .hbm, ⟨35, _⟩ => ⟨S32x64, .f32⟩
  | .hbm, ⟨36, _⟩ => ⟨S1x64, .f32⟩
  | .hbm, ⟨37, _⟩ => ⟨S1x64, .f32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S50000x64, .f32⟩
  | .hbm, ⟨50, _⟩ => ⟨S64x64, .f32⟩
  | .hbm, ⟨51, _⟩ => ⟨S64x64, .f32⟩
  | .hbm, ⟨52, _⟩ => ⟨S1x64, .f32⟩
  | .hbm, ⟨53, _⟩ => ⟨S1x64, .f32⟩
  | .hbm, ⟨54, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x32, .f32⟩
  | .local _ .vmem, ⟨5, _⟩ => ⟨S5000x32, .f32⟩
  | .local _ .vmem, ⟨6, _⟩ => ⟨S64x64, .f32⟩
  | .local _ .vmem, ⟨7, _⟩ => ⟨S64x64, .f32⟩
  | .local _ .vmem, ⟨8, _⟩ => ⟨S32x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S160x64_S64x64_0_0 : S160x64.Slices ![0, 0] S64x64
  slices_S160x64_S64x64_64_0 : S160x64.Slices ![64, 0] S64x64
  slices_S160x64_S32x64_128_0 : S160x64.Slices ![128, 0] S32x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S5000x32_S5000x32_0_0 : ∀ a, (![0, 0] : Fin 2 → Nat) a + S5000x32.size a ≤ S5000x32.size a
  h_S5000x32 : 0 < S5000x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S50000x64 : S_.BroadcastsInDim S50000x64 (![] : Fin 0 → Fin S50000x64.rank)
  slices_S128x64_S64x64_0_0 : S128x64.Slices ![0, 0] S64x64
  slices_S128x64_S64x64_64_0 : S128x64.Slices ![64, 0] S64x64
  gather_S50000x64_S800000x1_S800000x64_1_0_n_n_0_1_164_wf : GatherDims.WF S50000x64 S800000x1 S800000x64 [1] [0] [] [0] [] 1 ![1, 64]
  dot_S5000x64_S64x64_S5000x64_1_0_0_1_n_n_wf : DotDims.WF S5000x64 S64x64 S5000x64 [1] [0] [0] [1] [] []
  dot_S5000x32_S32x64_S5000x64_1_0_0_1_n_n_wf : DotDims.WF S5000x32 S32x64 S5000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S800000x64.size a
  hwx0_0 : ∀ i : grid0.Coords, EltTy.bits .f32 = 32 ∨ (Rect.block (s := S800000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S800000x64.size a
  hwx0_1 : ∀ i : grid0.Coords, EltTy.bits .f32 = 32 ∨ (Rect.block (s := S800000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S800000x32.size a
  hwx0_2 : ∀ i : grid0.Coords, EltTy.bits .f32 = 32 ∨ (Rect.block (s := S800000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S800000x64.size a
  hwx0_9 : ∀ i : grid0.Coords, EltTy.bits .f32 = 32 ∨ (Rect.block (s := S800000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v10) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S160x64 : Shape := ⟨2, ![160, 64]⟩
abbrev S64 : Shape := ⟨1, ![64]⟩
abbrev S64x64 : Shape := ⟨2, ![64, 64]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S1x64 : Shape := ⟨2, ![1, 64]⟩
abbrev S50000x128 : Shape := ⟨2, ![50000, 128]⟩

abbrev nBuf : Space → Nat
  | .hbm => 72
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S160x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x160, .f32⟩
  | .hbm, ⟨34, _⟩ => ⟨S800000x64, .f32⟩
  | .hbm, ⟨35, _⟩ => ⟨S1x64, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S800000x64, .f32⟩
  | .hbm, ⟨40, _⟩ => ⟨S800000x64, .f32⟩
  | .hbm, ⟨41, _⟩ => ⟨S800000x64, .f32⟩
  | .hbm, ⟨42, _⟩ => ⟨S1x64, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S50000x64, .f32⟩
  | .hbm, ⟨56, _⟩ => ⟨S50000x128, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_cst : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call2_cst : Ref sig .tc := ⟨.hbm, 69, rfl⟩
abbrev main_call2_v0 : Ref sig .tc := ⟨.hbm, 70, rfl⟩
abbrev main_v47 : Ref sig .tc := ⟨.hbm, 71, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x160_d1 : Shape.Concatenates [S800000x64, S800000x64, S800000x32] S800000x160 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x160_S160x64_S800000x64_1_0_0_1_n_n_wf : DotDims.WF S800000x160 S160x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x64_S800000x64_1_0_0_1_n_n : DotDims S800000x160 S160x64 S800000x64 where
  lhsContracting := [1]
  rhsContracting := [0]
  lhsNonContracting := [0]
  rhsNonContracting := [1]
  lhsBatch := []
  rhsBatch := []
  wf := dot_S800000x160_S160x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The idealized kernel program's run with its result array named.

  The program is four stretches: host operations, the edge perceptron as a grid of 160 row blocks, host operations
  again, and the node perceptron as a grid of 10 row blocks. Every weakly fair execution terminates without a fault,
  the argument arrays end as launched, and the result array ends at the contents the last stretch's boundary names:
  the buffers at every boundary are a fold over the launch memory (a host stretch applies its operations; a grid
  leaves its arrays at what its write-backs hold and every other buffer as entered).
-/
import proofs.«131791_j60619168416170_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, the result buffer read beside the arguments -/

set_option backward.isDefEq.respectTransparency.types false in
/-- Every weakly fair execution terminates without a fault; the result buffer ends at the last segment boundary's
    contents and the arguments as launched. -/
theorem run_named : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.KRun

end
-- ==== Proof.KHost.lean ====
/-
  The host stretches of the idealized kernel program, read buffer by buffer from ANY contents `Wx` at their start.

  The first stretch takes the two rows of the edge list (`idxRow0`: sources, `idxRow1`: targets), wraps a negative
  index by the table's length and lays it out as a column (`wrapCol`), gathers the feature rows at the two index
  columns, cuts the first-layer weights of the edge perceptron into their three row blocks and recasts its two bias
  vectors as rows. The second stretch sums the edge outputs into their target rows, starting from the zero array
  (a scatter-add at the wrapped target column), cuts the node perceptron's first-layer weights into two row blocks
  and recasts its biases. Every other buffer a stretch does not write keeps its contents.
-/
import proofs.«131791_j60619168416170_2_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]

/-- Row 0 of the [2, 800000] edge list: the source node of every edge. -/
def idxRow0 (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000

/-- Row 1: the target node of every edge. -/
def idxRow1 (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000

/-- A negative index moved up by the table's length 50000, the indices laid out as a column. -/
def wrapCol (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The feature rows at an index column. -/
def gatherRows (x0 : (⟨S50000x64, .f32⟩ : BufTy).Contents (Elt F)) (i : (⟨S800000x1, .i32⟩ : BufTy).Contents (Elt F)) :
    (⟨S800000x64, .f32⟩ : BufTy).Contents (Elt F) :=
  Host.gather gather_S50000x64_S800000x1_S800000x64_1_0_n_n_0_1_164 x0 i

/-- The rows of `u` summed into the rows an index column names, from the zero array. -/
def scatterSum (i : (⟨S800000x1, .i32⟩ : BufTy).Contents (Elt F)) (u : (⟨S800000x64, .f32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32)) i u

variable (Wx : Valuation τ sig (Elt F))

/-! ## The first stretch -/

theorem after0_v10 : after hostOps0 Wx (Proc.devRef .tc main_v10)
    = gatherRows (Wx (Proc.devRef .tc main_arg0)) (wrapCol (idxRow0 (Wx (Proc.devRef .tc main_arg1)))) := by
  after_results_simp <;> rfl
theorem after0_v17 : after hostOps0 Wx (Proc.devRef .tc main_v17)
    = gatherRows (Wx (Proc.devRef .tc main_arg0)) (wrapCol (idxRow1 (Wx (Proc.devRef .tc main_arg1)))) := by
  after_results_simp <;> rfl
theorem after0_v3 : after hostOps0 Wx (Proc.devRef .tc main_v3) = idxRow1 (Wx (Proc.devRef .tc main_arg1)) := by
  after_results_simp <;> rfl
theorem after0_v18 : after hostOps0 Wx (Proc.devRef .tc main_v18)
    = extractStridedSlice S64x64 ![0, 0] (Wx (Proc.devRef .tc main_arg3)) slices_S160x64_S64x64_0_0 := by
  after_results_simp <;> rfl
theorem after0_v19 : after hostOps0 Wx (Proc.devRef .tc main_v19)
    = extractStridedSlice S64x64 ![64, 0] (Wx (Proc.devRef .tc main_arg3)) slices_S160x64_S64x64_64_0 := by
  after_results_simp <;> rfl
theorem after0_v20 : after hostOps0 Wx (Proc.devRef .tc main_v20)
    = extractStridedSlice S32x64 ![128, 0] (Wx (Proc.devRef .tc main_arg3)) slices_S160x64_S32x64_128_0 := by
  after_results_simp <;> rfl
theorem after0_v21 : after hostOps0 Wx (Proc.devRef .tc main_v21)
    = shapeCast _ (Wx (Proc.devRef .tc main_arg4)) shapeCasts_S64_S1x64 := by
  after_results_simp <;> rfl
theorem after0_v22 : after hostOps0 Wx (Proc.devRef .tc main_v22)
    = shapeCast _ (Wx (Proc.devRef .tc main_arg6)) shapeCasts_S64_S1x64 := by
  after_results_simp <;> rfl
/-- An argument array is written by no operation of the stretch. -/
theorem after0_arg0 : after hostOps0 Wx (Proc.devRef .tc main_arg0) = Wx (Proc.devRef .tc main_arg0) := by
  after_results_simp <;> rfl
theorem after0_arg2 : after hostOps0 Wx (Proc.devRef .tc main_arg2) = Wx (Proc.devRef .tc main_arg2) := by
  after_results_simp <;> rfl
theorem after0_arg5 : after hostOps0 Wx (Proc.devRef .tc main_arg5) = Wx (Proc.devRef .tc main_arg5) := by
  after_results_simp <;> rfl
theorem after0_arg7 : after hostOps0 Wx (Proc.devRef .tc main_arg7) = Wx (Proc.devRef .tc main_arg7) := by
  after_results_simp <;> rfl
theorem after0_arg8 : after hostOps0 Wx (Proc.devRef .tc main_arg8) = Wx (Proc.devRef .tc main_arg8) := by
  after_results_simp <;> rfl
theorem after0_arg9 : after hostOps0 Wx (Proc.devRef .tc main_arg9) = Wx (Proc.devRef .tc main_arg9) := by
  after_results_simp <;> rfl
theorem after0_arg10 : after hostOps0 Wx (Proc.devRef .tc main_arg10) = Wx (Proc.devRef .tc main_arg10) := by
  after_results_simp <;> rfl

/-! ## The second stretch -/

theorem after1_v31 : after hostOps1 Wx (Proc.devRef .tc main_v31)
    = scatterSum (wrapCol (Wx (Proc.devRef .tc main_v3))) (Wx (Proc.devRef .tc main_v23)) := by
  after_results_simp <;> rfl
theorem after1_v32 : after hostOps1 Wx (Proc.devRef .tc main_v32)
    = extractStridedSlice S64x64 ![0, 0] (Wx (Proc.devRef .tc main_arg7)) slices_S128x64_S64x64_0_0 := by
  after_results_simp <;> rfl
theorem after1_v33 : after hostOps1 Wx (Proc.devRef .tc main_v33)
    = extractStridedSlice S64x64 ![64, 0] (Wx (Proc.devRef .tc main_arg7)) slices_S128x64_S64x64_64_0 := by
  after_results_simp <;> rfl
theorem after1_v34 : after hostOps1 Wx (Proc.devRef .tc main_v34)
    = shapeCast _ (Wx (Proc.devRef .tc main_arg8)) shapeCasts_S64_S1x64 := by
  after_results_simp <;> rfl
theorem after1_v35 : after hostOps1 Wx (Proc.devRef .tc main_v35)
    = shapeCast _ (Wx (Proc.devRef .tc main_arg10)) shapeCasts_S64_S1x64 := by
  after_results_simp <;> rfl
theorem after1_arg0 : after hostOps1 Wx (Proc.devRef .tc main_arg0) = Wx (Proc.devRef .tc main_arg0) := by
  after_results_simp <;> rfl
theorem after1_arg9 : after hostOps1 Wx (Proc.devRef .tc main_arg9) = Wx (Proc.devRef .tc main_arg9) := by
  after_results_simp <;> rfl

end Cert.KernelIdeal.KHost

end
-- ==== Proof.Spec.lean ====
/-
  The mathematics of one message-passing layer, index by index on the extended reals.

  EDGE STAGE. For edge e the two endpoint rows xr[e,·], xc[e,·] (64 entries each) and the edge's own 32 attributes
  ea[e,·] are sent through a two-layer perceptron: hidden unit k is
      max( Σ_l xr[e,l]·W1[l,k] + Σ_l xc[e,l]·W1[64+l,k] + Σ_l ea[e,l]·W1[128+l,k] + b1[k] , 0 )
  and output j is Σ_k hidden[k]·W2[k,j] + b2[j].
  NODE STAGE. For node n, with agg[n,·] the sum of the edge outputs arriving at n: hidden unit k is
      max( Σ_l x[n,l]·W1[l,k] + Σ_l agg[n,l]·W1[64+l,k] + b1[k] , 0 )
  and output j is max( Σ_k hidden[k]·W2[k,j] + b2[j] + x[n,j] , 0 ).
  Each stage is stated twice: over the three (two) row blocks of W1 given as separate matrices and the biases as
  [1,64] rows (the form a tiled computation sees), and over the whole W1 and the biases as vectors (the form
  the plain formula has); `edgeRows_eq_edgeWhole` and `nodeRows_eq_nodeWhole` say that the first, at the row blocks
  cut out of W1 and the biases recast as rows, is the second. The only law used between the two forms of a
  first-layer sum is that a sum over 160 (128) consecutive positions is the sum of its consecutive stretches, which
  holds in any commutative monoid: no finiteness of the entries is needed.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The array shapes of the layer, as literals. -/
abbrev E64 : Shape := ⟨2, ![800000, 64]⟩
abbrev E32 : Shape := ⟨2, ![800000, 32]⟩
abbrev N64 : Shape := ⟨2, ![50000, 64]⟩
abbrev M64 : Shape := ⟨2, ![64, 64]⟩
abbrev M32 : Shape := ⟨2, ![32, 64]⟩
abbrev M160 : Shape := ⟨2, ![160, 64]⟩
abbrev M128 : Shape := ⟨2, ![128, 64]⟩
abbrev R64 : Shape := ⟨2, ![1, 64]⟩
abbrev V64 : Shape := ⟨1, ![64]⟩

/-- The zero the rectifier compares with: the extended real the all-zero f32 word denotes. -/
abbrev Z : EReal := Ideal.ofBits .f32 0x00000000#32

/-! ## The edge stage -/

/-- Hidden unit `k` of edge `e`, W1 given as its three row blocks and b1 as a row. -/
def edgeHidRows (xr xc : E64.Idx → EReal) (ea : E32.Idx → EReal) (w1x w1y : M64.Idx → EReal) (w1e : M32.Idx → EReal)
    (b1 : R64.Idx → EReal) (e : Fin 800000) (k : Fin 64) : EReal :=
  max ((((∑ l : Fin 64, xr (ix2 e l) * w1x (ix2 l k)) + (∑ l : Fin 64, xc (ix2 e l) * w1y (ix2 l k)))
        + (∑ l : Fin 32, ea (ix2 e l) * w1e (ix2 l k))) + b1 (ix2 0 k)) Z

/-- Output `j` of edge `e`, in the same form. -/
def edgeAtRows (xr xc : E64.Idx → EReal) (ea : E32.Idx → EReal) (w1x w1y : M64.Idx → EReal) (w1e : M32.Idx → EReal)
    (b1 : R64.Idx → EReal) (w2 : M64.Idx → EReal) (b2 : R64.Idx → EReal) (e : Fin 800000) (j : Fin 64) : EReal :=
  (∑ k : Fin 64, edgeHidRows xr xc ea w1x w1y w1e b1 e k * w2 (ix2 k j)) + b2 (ix2 0 j)

/-- The edge stage's whole output array, in that form. -/
def edgeRows (xr xc : E64.Idx → EReal) (ea : E32.Idx → EReal) (w1x w1y : M64.Idx → EReal) (w1e : M32.Idx → EReal)
    (b1 : R64.Idx → EReal) (w2 : M64.Idx → EReal) (b2 : R64.Idx → EReal) : E64.Idx → EReal :=
  fun i => edgeAtRows xr xc ea w1x w1y w1e b1 w2 b2 (i 0) (i 1)

theorem edgeRows_ix2 (xr xc : E64.Idx → EReal) (ea : E32.Idx → EReal) (w1x w1y : M64.Idx → EReal) (w1e : M32.Idx → EReal)
    (b1 : R64.Idx → EReal) (w2 : M64.Idx → EReal) (b2 : R64.Idx → EReal) (e : Fin 800000) (j : Fin 64) :
    edgeRows xr xc ea w1x w1y w1e b1 w2 b2 (ix2 e j) = edgeAtRows xr xc ea w1x w1y w1e b1 w2 b2 e j := rfl

/-- Hidden unit `k` of edge `e` over the whole W1 : [160,64] and b1 : [64]. -/
def edgeHidWhole (xr xc : E64.Idx → EReal) (ea : E32.Idx → EReal) (w1 : M160.Idx → EReal) (b1 : V64.Idx → EReal)
    (e : Fin 800000) (k : Fin 64) : EReal :=
  max ((((∑ l : Fin 64, xr (ix2 e l) * w1 (ix2 ⟨l.val, by omega⟩ k)) + (∑ l : Fin 64, xc (ix2 e l) * w1 (ix2 ⟨64 + l.val, by omega⟩ k)))
        + (∑ l : Fin 32, ea (ix2 e l) * w1 (ix2 ⟨128 + l.val, by omega⟩ k))) + b1 (ix1 k)) Z

def edgeAtWhole (xr xc : E64.Idx → EReal) (ea : E32.Idx → EReal) (w1 : M160.Idx → EReal) (b1 : V64.Idx → EReal)
    (w2 : M64.Idx → EReal) (b2 : V64.Idx → EReal) (e : Fin 800000) (j : Fin 64) : EReal :=
  (∑ k : Fin 64, edgeHidWhole xr xc ea w1 b1 e k * w2 (ix2 k j)) + b2 (ix1 j)

def edgeWhole (xr xc : E64.Idx → EReal) (ea : E32.Idx → EReal) (w1 : M160.Idx → EReal) (b1 : V64.Idx → EReal)
    (w2 : M64.Idx → EReal) (b2 : V64.Idx → EReal) : E64.Idx → EReal :=
  fun i => edgeAtWhole xr xc ea w1 b1 w2 b2 (i 0) (i 1)

theorem edgeWhole_ix2 (xr xc : E64.Idx → EReal) (ea : E32.Idx → EReal) (w1 : M160.Idx → EReal) (b1 : V64.Idx → EReal)
    (w2 : M64.Idx → EReal) (b2 : V64.Idx → EReal) (e : Fin 800000) (j : Fin 64) :
    edgeWhole xr xc ea w1 b1 w2 b2 (ix2 e j) = edgeAtWhole xr xc ea w1 b1 w2 b2 e j := rfl

/-! ## The node stage -/

def nodeHidRows (x agg : N64.Idx → EReal) (w1x w1a : M64.Idx → EReal) (b1 : R64.Idx → EReal) (n : Fin 50000) (k : Fin 64) : EReal :=
  max (((∑ l : Fin 64, x (ix2 n l) * w1x (ix2 l k)) + (∑ l : Fin 64, agg (ix2 n l) * w1a (ix2 l k))) + b1 (ix2 0 k)) Z

def nodeAtRows (x agg : N64.Idx → EReal) (w1x w1a : M64.Idx → EReal) (b1 : R64.Idx → EReal) (w2 : M64.Idx → EReal)
    (b2 : R64.Idx → EReal) (n : Fin 50000) (j : Fin 64) : EReal :=
  max (((∑ k : Fin 64, nodeHidRows x agg w1x w1a b1 n k * w2 (ix2 k j)) + b2 (ix2 0 j)) + x (ix2 n j)) Z

def nodeRows (x agg : N64.Idx → EReal) (w1x w1a : M64.Idx → EReal) (b1 : R64.Idx → EReal) (w2 : M64.Idx → EReal)
    (b2 : R64.Idx → EReal) : N64.Idx → EReal :=
  fun i => nodeAtRows x agg w1x w1a b1 w2 b2 (i 0) (i 1)

theorem nodeRows_ix2 (x agg : N64.Idx → EReal) (w1x w1a : M64.Idx → EReal) (b1 : R64.Idx → EReal) (w2 : M64.Idx → EReal)
    (b2 : R64.Idx → EReal) (n : Fin 50000) (j : Fin 64) :
    nodeRows x agg w1x w1a b1 w2 b2 (ix2 n j) = nodeAtRows x agg w1x w1a b1 w2 b2 n j := rfl

def nodeHidWhole (x agg : N64.Idx → EReal) (w1 : M128.Idx → EReal) (b1 : V64.Idx → EReal) (n : Fin 50000) (k : Fin 64) : EReal :=
  max (((∑ l : Fin 64, x (ix2 n l) * w1 (ix2 ⟨l.val, by omega⟩ k)) + (∑ l : Fin 64, agg (ix2 n l) * w1 (ix2 ⟨64 + l.val, by omega⟩ k))) + b1 (ix1 k)) Z

def nodeAtWhole (x agg : N64.Idx → EReal) (w1 : M128.Idx → EReal) (b1 : V64.Idx → EReal) (w2 : M64.Idx → EReal)
    (b2 : V64.Idx → EReal) (n : Fin 50000) (j : Fin 64) : EReal :=
  max (((∑ k : Fin 64, nodeHidWhole x agg w1 b1 n k * w2 (ix2 k j)) + b2 (ix1 j)) + x (ix2 n j)) Z

def nodeWhole (x agg : N64.Idx → EReal) (w1 : M128.Idx → EReal) (b1 : V64.Idx → EReal) (w2 : M64.Idx → EReal)
    (b2 : V64.Idx → EReal) : N64.Idx → EReal :=
  fun i => nodeAtWhole x agg w1 b1 w2 b2 (i 0) (i 1)

theorem nodeWhole_ix2 (x agg : N64.Idx → EReal) (w1 : M128.Idx → EReal) (b1 : V64.Idx → EReal) (w2 : M64.Idx → EReal)
    (b2 : V64.Idx → EReal) (n : Fin 50000) (j : Fin 64) :
    nodeWhole x agg w1 b1 w2 b2 (ix2 n j) = nodeAtWhole x agg w1 b1 w2 b2 n j := rfl

end Cert.Gnn

end
-- ==== Proof.SpecBridge.lean ====
/-
  The two forms of each stage's specification agree: with the three (two) row blocks of the first-layer weights
  cut out of the whole matrix at rows 0, 64 and 128 (0 and 64), and each bias vector recast as a one-row matrix, the
  form over row blocks is the form over the whole matrix. A cut block's entry (l, k) is the matrix's entry
  (offset + l, k); the recast row's entry (0, k) is the vector's entry k.
-/
import proofs.«131791_j60619168416170_2_alg».proof.Proof.Spec

noncomputable section

open scoped BigOperators

namespace Cert.Gnn

open Idealize.ShloMosaic Idealize.ShloMosaic.ValueIdx

/-- Row block at row offset `o` of a [R,64] matrix, 64 rows: entry (l,k) is the matrix's (o+l,k). -/
theorem slice_rows_apply {R n o : Nat} (w : (⟨2, ![R, 64]⟩ : Shape).Idx → EReal)
    (h : (⟨2, ![R, 64]⟩ : Shape).Slices ![o, 0] ⟨2, ![n, 64]⟩) (l : Fin n) (k : Fin 64) (hl : o + l.val < R) :
    extractStridedSlice ⟨2, ![n, 64]⟩ ![o, 0] w h (ix2 l k) = w (ix2 ⟨o + l.val, hl⟩ k) :=
  extractStridedSlice_apply ![o, 0] w h (ix2 l k) (ix2 ⟨o + l.val, hl⟩ k) (fun a => match a with
    | ⟨0, _⟩ => rfl
    | ⟨1, _⟩ => by show k.val = 0 + k.val; omega)

/-- A 64-vector recast as a [1,64] row: entry (0,k) is the vector's entry k. -/
theorem row_of_vec_apply (b : V64.Idx → EReal) (h : V64.ShapeCasts R64) (k : Fin 64) :
    shapeCast R64 b h (ix2 0 k) = b (ix1 k) :=
  shapeCast_apply b h (ix2 0 k) (ix1 k) (by
    rw [Shape.rowMajor_val_two, Shape.rowMajor_val_one]
    show k.val = 0 * 64 + k.val
    omega)

theorem edgeRows_eq_edgeWhole (xr xc : E64.Idx → EReal) (ea : E32.Idx → EReal) (w1 : M160.Idx → EReal) (b1 : V64.Idx → EReal)
    (w2 : M64.Idx → EReal) (b2 : V64.Idx → EReal)
    (h0 : M160.Slices ![0, 0] M64) (h1 : M160.Slices ![64, 0] M64) (h2 : M160.Slices ![128, 0] M32) (hc : V64.ShapeCasts R64) :
    edgeRows xr xc ea (extractStridedSlice M64 ![0, 0] w1 h0) (extractStridedSlice M64 ![64, 0] w1 h1)
        (extractStridedSlice M32 ![128, 0] w1 h2) (shapeCast R64 b1 hc) w2 (shapeCast R64 b2 hc)
      = edgeWhole xr xc ea w1 b1 w2 b2 := by
  funext i
  obtain ⟨e, j, rfl⟩ : ∃ (e : Fin 800000) (j : Fin 64), i = ix2 e j := ⟨i 0, i 1, eq_ix2 i⟩
  rw [edgeRows_ix2, edgeWhole_ix2]
  unfold edgeAtRows edgeAtWhole
  rw [row_of_vec_apply]
  refine congrArg (· + b2 (ix1 j)) (Finset.sum_congr rfl fun k _ => congrArg (· * w2 (ix2 k j)) ?_)
  unfold edgeHidRows edgeHidWhole
  rw [row_of_vec_apply]
  have e0 : ∀ l : Fin 64, extractStridedSlice M64 ![0, 0] w1 h0 (ix2 l k) = w1 (ix2 ⟨l.val, by omega⟩ k) := fun l =>
    (slice_rows_apply (R := 160) (n := 64) (o := 0) w1 h0 l k (by omega)).trans
      (congrArg w1 (congrArg (fun r => ix2 r k) (Fin.ext (by show 0 + l.val = l.val; omega))))
  have e1 : ∀ l : Fin 64, extractStridedSlice M64 ![64, 0] w1 h1 (ix2 l k) = w1 (ix2 ⟨64 + l.val, by omega⟩ k) := fun l =>
    slice_rows_apply (R := 160) (n := 64) (o := 64) w1 h1 l k (by omega)
  have e2 : ∀ l : Fin 32, extractStridedSlice M32 ![128, 0] w1 h2 (ix2 l k) = w1 (ix2 ⟨128 + l.val, by omega⟩ k) := fun l =>
    slice_rows_apply (R := 160) (n := 32) (o := 128) w1 h2 l k (by omega)
  simp only [e0, e1, e2]

theorem nodeRows_eq_nodeWhole (x agg : N64.Idx → EReal) (w1 : M128.Idx → EReal) (b1 : V64.Idx → EReal)
    (w2 : M64.Idx → EReal) (b2 : V64.Idx → EReal)
    (h0 : M128.Slices ![0, 0] M64) (h1 : M128.Slices ![64, 0] M64) (hc : V64.ShapeCasts R64) :
    nodeRows x agg (extractStridedSlice M64 ![0, 0] w1 h0) (extractStridedSlice M64 ![64, 0] w1 h1)
        (shapeCast R64 b1 hc) w2 (shapeCast R64 b2 hc)
      = nodeWhole x agg w1 b1 w2 b2 := by
  funext i
  obtain ⟨n, j, rfl⟩ : ∃ (n : Fin 50000) (j : Fin 64), i = ix2 n j := ⟨i 0, i 1, eq_ix2 i⟩
  rw [nodeRows_ix2, nodeWhole_ix2]
  unfold nodeAtRows nodeAtWhole
  rw [row_of_vec_apply]
  refine congrArg (fun s => max ((s + b2 (ix1 j)) + x (ix2 n j)) Z) (Finset.sum_congr rfl fun k _ => congrArg (· * w2 (ix2 k j)) ?_)
  unfold nodeHidRows nodeHidWhole
  rw [row_of_vec_apply]
  have e0 : ∀ l : Fin 64, extractStridedSlice M64 ![0, 0] w1 h0 (ix2 l k) = w1 (ix2 ⟨l.val, by omega⟩ k) := fun l =>
    (slice_rows_apply (R := 128) (n := 64) (o := 0) w1 h0 l k (by omega)).trans
      (congrArg w1 (congrArg (fun r => ix2 r k) (Fin.ext (by show 0 + l.val = l.val; omega))))
  have e1 : ∀ l : Fin 64, extractStridedSlice M64 ![64, 0] w1 h1 (ix2 l k) = w1 (ix2 ⟨64 + l.val, by omega⟩ k) := fun l =>
    slice_rows_apply (R := 128) (n := 64) (o := 64) w1 h1 l k (by omega)
  simp only [e0, e1]

end Cert.Gnn

end
-- ==== Proof.KValue.lean ====
/-
  The idealized kernel program's result array as ONE function of its eleven argument arrays.

  Read backwards from the last boundary: the result is the node stage's function of the node grid's seven input
  arrays as the second host stretch leaves them — the features, the scatter-sum of the edge grid's output at the
  wrapped target column, the two row blocks of the node weights, the biases as rows —; the edge grid's output is the
  edge stage's function of its nine input arrays as the first host stretch leaves them — the feature rows gathered at
  the wrapped source and target columns, the edge attributes, the three row blocks of the edge weights, the biases as
  rows. The two stages' functions are what each grid's blocks are shown to hold (`hedge`, `hnode`, proved with the
  regions and taken here as hypotheses); with the row blocks cut from the whole weight matrices they are the
  specification's functions of the whole matrices (`edgeRows_eq_edgeWhole`, `nodeRows_eq_nodeWhole`).
-/
import proofs.«131791_j60619168416170_2_alg».proof.Proof.KRun
import proofs.«131791_j60619168416170_2_alg».proof.Proof.KHost
import proofs.«131791_j60619168416170_2_alg».proof.Proof.SpecBridge

set_option maxRecDepth 16384

noncomputable section

namespace Cert.KernelIdeal.KValue

open Cert.KernelIdeal Cert.KernelIdeal.Gen Cert.KernelIdeal.KHost
open Idealize.ShloMosaic Idealize.ShloMosaic.TcCoe Idealize.SL.Sem

/-- What the edge grid's output array holds after the grid, for any contents at its entry. -/
def EdgeHolds : Prop :=
  ∀ (V : (c : Dev nD) → (b : Ref sig .tc) → Buf (Elt Ideal) ((c : Thread nD τ).loc b)) (c : Dev nD),
    (dat0 (F := Ideal) V c).arrAt 9 cfg0.N
      = Cert.Gnn.edgeRows (V c main_v10) (V c main_v17) (V c main_arg2) (V c main_v18) (V c main_v19) (V c main_v20)
          (V c main_v21) (V c main_arg5) (V c main_v22)

/-- What the node grid's output array holds after the grid, for any contents at its entry. -/
def NodeHolds : Prop :=
  ∀ (V : (c : Dev nD) → (b : Ref sig .tc) → Buf (Elt Ideal) ((c : Thread nD τ).loc b)) (c : Dev nD),
    (dat1 (F := Ideal) V c).arrAt 7 cfg1.N
      = Cert.Gnn.nodeRows (V c main_arg0) (V c main_v31) (V c main_v32) (V c main_v33) (V c main_v34) (V c main_arg9)
          (V c main_v35)

/-- The program's result as a function of its argument arrays: the node stage of the features and of the
    scatter-sum, at the wrapped target column, of the edge stage of the gathered endpoint rows. -/
def kout (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S160x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S128x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal)) : (⟨S50000x64, .f32⟩ : BufTy).Contents (Elt Ideal) :=
  Cert.Gnn.nodeWhole x0
    (scatterSum (wrapCol (idxRow1 x1))
      (Cert.Gnn.edgeWhole (gatherRows x0 (wrapCol (idxRow0 x1))) (gatherRows x0 (wrapCol (idxRow1 x1))) x2 x3 x4 x5 x6))
    x7 x8 x9 x10

variable (m : (ℓ : Loc nD τ sig) → Buf (Elt Ideal) ℓ) (ρ : Dev nD → PrngReg)

/-! ## The edge grid's input arrays, as the first host stretch leaves them -/

theorem V1_v10 (c : Dev nD) : V1 m ρ c main_v10 = gatherRows (m ((c.tc : Thread nD τ).loc main_arg0)) (wrapCol (idxRow0 (m ((c.tc : Thread nD τ).loc main_arg1)))) :=
  after0_v10 (W0 m ρ c)
theorem V1_v17 (c : Dev nD) : V1 m ρ c main_v17 = gatherRows (m ((c.tc : Thread nD τ).loc main_arg0)) (wrapCol (idxRow1 (m ((c.tc : Thread nD τ).loc main_arg1)))) :=
  after0_v17 (W0 m ρ c)
theorem V1_arg2 (c : Dev nD) : V1 m ρ c main_arg2 = (m ((c.tc : Thread nD τ).loc main_arg2)) := after0_arg2 (W0 m ρ c)
theorem V1_v18 (c : Dev nD) : V1 m ρ c main_v18 = extractStridedSlice S64x64 ![0, 0] (m ((c.tc : Thread nD τ).loc main_arg3)) slices_S160x64_S64x64_0_0 :=
  after0_v18 (W0 m ρ c)
theorem V1_v19 (c : Dev nD) : V1 m ρ c main_v19 = extractStridedSlice S64x64 ![64, 0] (m ((c.tc : Thread nD τ).loc main_arg3)) slices_S160x64_S64x64_64_0 :=
  after0_v19 (W0 m ρ c)
theorem V1_v20 (c : Dev nD) : V1 m ρ c main_v20 = extractStridedSlice S32x64 ![128, 0] (m ((c.tc : Thread nD τ).loc main_arg3)) slices_S160x64_S32x64_128_0 :=
  after0_v20 (W0 m ρ c)
theorem V1_v21 (c : Dev nD) : V1 m ρ c main_v21 = shapeCast _ (m ((c.tc : Thread nD τ).loc main_arg4)) shapeCasts_S64_S1x64 := after0_v21 (W0 m ρ c)
theorem V1_arg5 (c : Dev nD) : V1 m ρ c main_arg5 = (m ((c.tc : Thread nD τ).loc main_arg5)) := after0_arg5 (W0 m ρ c)
theorem V1_v22 (c : Dev nD) : V1 m ρ c main_v22 = shapeCast _ (m ((c.tc : Thread nD τ).loc main_arg6)) shapeCasts_S64_S1x64 := after0_v22 (W0 m ρ c)

/-- The edge grid's output array at its exit: the edge stage of the gathered rows. -/
theorem W2_v23 (hedge : EdgeHolds) (c : Dev nD) :
    W2 m ρ c (Proc.devRef .tc main_v23)
      = Cert.Gnn.edgeWhole (gatherRows (m ((c.tc : Thread nD τ).loc main_arg0)) (wrapCol (idxRow0 (m ((c.tc : Thread nD τ).loc main_arg1))))) (gatherRows (m ((c.tc : Thread nD τ).loc main_arg0)) (wrapCol (idxRow1 (m ((c.tc : Thread nD τ).loc main_arg1)))))
          (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W2_arr m ρ c 9).trans ((hedge (V1 m ρ) c).trans ?_)
  rw [V1_v10, V1_v17, V1_arg2, V1_v18, V1_v19, V1_v20, V1_v21, V1_arg5, V1_v22]
  exact Cert.Gnn.edgeRows_eq_edgeWhole _ _ _ _ _ _ _ _ _ _ _

/-! ## Buffers the edge grid does not touch keep the first stretch's contents -/

theorem W2_v3 (c : Dev nD) : W2 m ρ c (Proc.devRef .tc main_v3) = idxRow1 (m ((c.tc : Thread nD τ).loc main_arg1)) :=
  (W2_of_ne m ρ c main_v3 (by decide)).trans (after0_v3 (W0 m ρ c))
theorem W2_arg0 (c : Dev nD) : W2 m ρ c (Proc.devRef .tc main_arg0) = (m ((c.tc : Thread nD τ).loc main_arg0)) :=
  (W2_of_ne m ρ c main_arg0 (by decide)).trans (after0_arg0 (W0 m ρ c))
theorem W2_arg7 (c : Dev nD) : W2 m ρ c (Proc.devRef .tc main_arg7) = (m ((c.tc : Thread nD τ).loc main_arg7)) :=
  (W2_of_ne m ρ c main_arg7 (by decide)).trans (after0_arg7 (W0 m ρ c))
theorem W2_arg8 (c : Dev nD) : W2 m ρ c (Proc.devRef .tc main_arg8) = (m ((c.tc : Thread nD τ).loc main_arg8)) :=
  (W2_of_ne m ρ c main_arg8 (by decide)).trans (after0_arg8 (W0 m ρ c))
theorem W2_arg9 (c : Dev nD) : W2 m ρ c (Proc.devRef .tc main_arg9) = (m ((c.tc : Thread nD τ).loc main_arg9)) :=
  (W2_of_ne m ρ c main_arg9 (by decide)).trans (after0_arg9 (W0 m ρ c))
theorem W2_arg10 (c : Dev nD) : W2 m ρ c (Proc.devRef .tc main_arg10) = (m ((c.tc : Thread nD τ).loc main_arg10)) :=
  (W2_of_ne m ρ c main_arg10 (by decide)).trans (after0_arg10 (W0 m ρ c))

/-! ## The node grid's input arrays, as the second host stretch leaves them -/

theorem V3_arg0 (c : Dev nD) : V3 m ρ c main_arg0 = (m ((c.tc : Thread nD τ).loc main_arg0)) := (after1_arg0 (W2 m ρ c)).trans (W2_arg0 m ρ c)
theorem V3_v31 (hedge : EdgeHolds) (c : Dev nD) :
    V3 m ρ c main_v31
      = scatterSum (wrapCol (idxRow1 (m ((c.tc : Thread nD τ).loc main_arg1))))
          (Cert.Gnn.edgeWhole (gatherRows (m ((c.tc : Thread nD τ).loc main_arg0)) (wrapCol (idxRow0 (m ((c.tc : Thread nD τ).loc main_arg1))))) (gatherRows (m ((c.tc : Thread nD τ).loc main_arg0)) (wrapCol (idxRow1 (m ((c.tc : Thread nD τ).loc main_arg1)))))
            (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (after1_v31 (W2 m ρ c)).trans ?_
  rw [W2_v3, W2_v23 m ρ hedge]
theorem V3_v32 (c : Dev nD) : V3 m ρ c main_v32 = extractStridedSlice S64x64 ![0, 0] (m ((c.tc : Thread nD τ).loc main_arg7)) slices_S128x64_S64x64_0_0 := by
  refine (after1_v32 (W2 m ρ c)).trans ?_
  rw [W2_arg7]
theorem V3_v33 (c : Dev nD) : V3 m ρ c main_v33 = extractStridedSlice S64x64 ![64, 0] (m ((c.tc : Thread nD τ).loc main_arg7)) slices_S128x64_S64x64_64_0 := by
  refine (after1_v33 (W2 m ρ c)).trans ?_
  rw [W2_arg7]
theorem V3_v34 (c : Dev nD) : V3 m ρ c main_v34 = shapeCast _ (m ((c.tc : Thread nD τ).loc main_arg8)) shapeCasts_S64_S1x64 := by
  refine (after1_v34 (W2 m ρ c)).trans ?_
  rw [W2_arg8]
theorem V3_arg9 (c : Dev nD) : V3 m ρ c main_arg9 = (m ((c.tc : Thread nD τ).loc main_arg9)) := (after1_arg9 (W2 m ρ c)).trans (W2_arg9 m ρ c)
theorem V3_v35 (c : Dev nD) : V3 m ρ c main_v35 = shapeCast _ (m ((c.tc : Thread nD τ).loc main_arg10)) shapeCasts_S64_S1x64 := by
  refine (after1_v35 (W2 m ρ c)).trans ?_
  rw [W2_arg10]

/-! ## The result -/

/-- The result buffer at the last boundary is `kout` of the launch arrays. -/
theorem W4_v36 (hedge : EdgeHolds) (hnode : NodeHolds) (c : Dev nD) :
    W4 m ρ c (Proc.devRef .tc main_v36)
      = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W4_arr m ρ c 7).trans ((hnode (V3 m ρ) c).trans ?_)
  rw [V3_arg0, V3_v31 m ρ hedge, V3_v32, V3_v33, V3_v34, V3_arg9, V3_v35]
  exact Cert.Gnn.nodeRows_eq_nodeWhole _ _ _ _ _ _ _ _ _

/-- THE RUN: every weakly fair execution terminates, the result array at `kout` of the arguments, the arguments
    as launched. -/
theorem run (hedge : EdgeHolds) (hnode : NodeHolds) :
    θ_run defs (onTc (τ := τ) (main (F := Ideal))) ⟨m, fun _ => 0, ρ⟩ (fun r => ∀ c : Dev nD,
      r.2.mem ((c.tc : Thread nD τ).loc main_v36) = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W4_v36 m ρ hedge hnode c), (h c).2⟩) (KRun.run_named m ρ)

end Cert.KernelIdeal.KValue

end
-- ==== Proof.Bridge.lean ====
/-
  The reference's result and the idealized kernel program's result are one function of the eleven argument arrays.

  Both are the node stage of (the features, the scatter-sum at the wrapped target column of the edge stage of
  (the feature rows gathered at the wrapped source column, those gathered at the wrapped target column, the edge
  attributes)). The reference's stages are read off its operations (`RefEdge`, `RefNode`: proved with the reference's
  stages, taken here as hypotheses); its index rows, its wrap of negative indices, its gathers and its scatter-sum
  are, operation for operation, the kernel program's host operations, so the two terms coincide.
-/
import proofs.«131791_j60619168416170_2_alg».proof.Proof.KValue
import proofs.«131791_j60619168416170_2_alg».proof.Proof.Gen.ReferenceIdeal.Read

set_option maxRecDepth 16384

noncomputable section

namespace Cert.ReferenceIdeal.Bridge

open Cert.ReferenceIdeal Cert.ReferenceIdeal.Read
open Idealize.ShloMosaic Idealize.ShloMosaic.TcCoe Idealize.SL.Sem
open Cert.KernelIdeal.KHost (idxRow0 idxRow1 wrapCol gatherRows scatterSum)

/-- The reference's edge stage, read off its operations, is the specification's. -/
def RefEdge : Prop :=
  ∀ (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S160x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)),
    val_main_v27 (F := Ideal) x0 x1 x2 x3 x4 x5 x6
      = Cert.Gnn.edgeWhole (val_main_v10 (F := Ideal) x0 x1) (val_main_v17 (F := Ideal) x0 x1) x2 x3 x4 x5 x6

/-- The reference's node stage, read off its operations, is the specification's. -/
def RefNode : Prop :=
  ∀ (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S160x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)),
    val_main_v47 (F := Ideal) x0 x1 x2 x3 x4 x5 x6 x7 x8 x9 x10
      = Cert.Gnn.nodeWhole x0 (val_main_v35 (F := Ideal) x0 x1 x2 x3 x4 x5 x6) x7 x8 x9 x10

/-- The reference's source column is the kernel program's: row 0 of the edge list, wrapped, as a column. -/
theorem srcCol_eq (x1 : (⟨S2x800000, .i32⟩ : BufTy).Contents (Elt Ideal)) : val_main_v9 (F := Ideal) x1 = wrapCol (idxRow0 x1) := rfl
/-- Its target column, both where the rows are gathered and where the edge outputs are summed. -/
theorem tgtCol_eq (x1 : (⟨S2x800000, .i32⟩ : BufTy).Contents (Elt Ideal)) : val_main_v16 (F := Ideal) x1 = wrapCol (idxRow1 x1) := rfl
theorem tgtCol_eq' (x1 : (⟨S2x800000, .i32⟩ : BufTy).Contents (Elt Ideal)) : val_main_v34 (F := Ideal) x1 = wrapCol (idxRow1 x1) := rfl

theorem srcRows_eq (x0 : (⟨S50000x64, .f32⟩ : BufTy).Contents (Elt Ideal)) (x1 : (⟨S2x800000, .i32⟩ : BufTy).Contents (Elt Ideal)) :
    val_main_v10 (F := Ideal) x0 x1 = gatherRows x0 (wrapCol (idxRow0 x1)) := rfl
theorem tgtRows_eq (x0 : (⟨S50000x64, .f32⟩ : BufTy).Contents (Elt Ideal)) (x1 : (⟨S2x800000, .i32⟩ : BufTy).Contents (Elt Ideal)) :
    val_main_v17 (F := Ideal) x0 x1 = gatherRows x0 (wrapCol (idxRow1 x1)) := rfl

/-- The reference's scatter-sum from the zero array is the kernel program's. -/
theorem scatter_eq (i : (⟨S800000x1, .i32⟩ : BufTy).Contents (Elt Ideal)) (u : (⟨S800000x64, .f32⟩ : BufTy).Contents (Elt Ideal)) :
    Host.scatterAdd (F := Ideal) (φ := .f32) scatter_S50000x64_S800000x1_S800000x64_1_0_0_1 (val_main_v28 (F := Ideal)) i u
      = scatterSum (F := Ideal) i u := rfl

/-- THE TWO RESULTS ARE ONE FUNCTION of the argument arrays. -/
theorem ref_eq_kout (he : RefEdge) (hn : RefNode) (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S160x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v47 (F := Ideal) x0 x1 x2 x3 x4 x5 x6 x7 x8 x9 x10
      = Cert.KernelIdeal.KValue.kout x0 x1 x2 x3 x4 x5 x6 x7 x8 x9 x10 := by
  rw [hn x0 x1 x2 x3 x4 x5 x6 x7 x8 x9 x10]
  unfold Cert.KernelIdeal.KValue.kout
  refine congrArg (fun a => Cert.Gnn.nodeWhole x0 a x7 x8 x9 x10) ?_
  unfold val_main_v35
  rw [he x0 x1 x2 x3 x4 x5 x6, scatter_eq, tgtCol_eq', srcRows_eq, tgtRows_eq]

end Cert.ReferenceIdeal.Bridge

end
-- ==== Proof.EdgeRegion.lean ====
/-
  The edge stage, tile by tile. The 800000 edges are cut into 160 consecutive tiles of 5000 rows. At tile t the
  computation holds rows 5000 t … 5000 t + 4999 of the two gathered endpoint arrays and of the edge attributes, and the
  whole of the six parameter arrays (three row blocks of the first layer's matrix, its bias as a row, the second
  layer's matrix and its bias as a row). On the extended reals a product of a [5000,K] block with a [K,64] matrix
  accumulated into zero is, entry by entry, the sum over the K shared positions; a row bias spread over the 5000 rows
  reads the row's entry of the same column; narrowing to a shorter float format changes nothing. So entry (p, q) of
  what tile t computes is the two-layer formula of edge 5000 t + p at output q, and since every row r lies in exactly
  the tile r / 5000, the output array ends as that formula of the nine input arrays at every index.
-/
import proofs.«131791_j60619168416170_2_alg».proof.Proof.Gen.KernelIdeal.Frame
import proofs.«131791_j60619168416170_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.EdgeRegion

open Idealize.ShloMosaic Idealize.ShloMosaic.TcCoe Idealize.SL.Sem Idealize.ShloMosaic.ValueIdx Cert.KernelIdeal Cert.KernelIdeal.Gen

/-! ## The body's arithmetic at one entry -/

/-- The contraction of a [5000,64] block with a [64,64] matrix over their shared axis. -/
abbrev D64 := dot_S5000x64_S64x64_S5000x64_1_0_0_1_n_n
/-- The contraction of a [5000,32] block with a [32,64] matrix over their shared axis. -/
abbrev D32 := dot_S5000x32_S32x64_S5000x64_1_0_0_1_n_n

theorem lhs64_0 (i : S5000x64.Idx) (q : D64.contr.Idx) : (D64.lhsIdx i q 0).val = (i 0).val := by
  unfold DotDims.lhsIdx
  rw [dif_neg (show ¬(0 : Fin S5000x64.rank) ∈ D64.lhsBatch by decide), dif_pos (show (0 : Fin S5000x64.rank) ∈ D64.lhsNonContracting by decide)]
  rfl
theorem lhs64_1 (i : S5000x64.Idx) (q : D64.contr.Idx) : (D64.lhsIdx i q 1).val = (q ⟨0, by decide⟩).val :=
  D64.lhsIdx_val_of_single rfl i q
theorem rhs64_0 (i : S5000x64.Idx) (q : D64.contr.Idx) : (D64.rhsIdx i q 0).val = (q ⟨0, by decide⟩).val :=
  D64.rhsIdx_val_of_single rfl i q
theorem rhs64_1 (i : S5000x64.Idx) (q : D64.contr.Idx) : (D64.rhsIdx i q 1).val = (i 1).val := by
  unfold DotDims.rhsIdx
  rw [dif_neg (show ¬(1 : Fin S64x64.rank) ∈ D64.rhsBatch by decide), dif_pos (show (1 : Fin S64x64.rank) ∈ D64.rhsNonContracting by decide)]
  rfl

/-- A [5000,64] by [64,64] product accumulated into the zero block, read at row p and column q: the sum over the
    64 shared positions of the row's entry times the column's entry. -/
theorem mm64 {φ₁ φ₂ : FTy} (l : FVec Ideal S5000x64 φ₁) (r : FVec Ideal S64x64 φ₂) (p : Fin 5000) (q : Fin 64) :
    matmul D64 none l r (constant S5000x64 .f32 0x00000000#32) (ix2 p q) = ∑ k : Fin 64, l (ix2 p k) * r (ix2 k q) := by
  refine (Ideal.matmul_constant_zero_apply D64 none l r (ix2 p q)).trans ?_
  rw [← Equiv.sum_comp (contrEquiv1 D64 64 rfl rfl).symm]
  refine Finset.sum_congr rfl fun k _ => ?_
  have hk := contrEquiv1_symm_val D64 64 rfl rfl k
  have el : D64.lhsIdx (ix2 p q) ((contrEquiv1 D64 64 rfl rfl).symm k) = ix2 p k := funext fun a => Fin.ext (by
    match a with
    | ⟨0, _⟩ => exact lhs64_0 _ _
    | ⟨1, _⟩ => exact (lhs64_1 _ _).trans hk)
  have er : D64.rhsIdx (ix2 p q) ((contrEquiv1 D64 64 rfl rfl).symm k) = ix2 k q := funext fun a => Fin.ext (by
    match a with
    | ⟨0, _⟩ => exact (rhs64_0 _ _).trans hk
    | ⟨1, _⟩ => exact rhs64_1 _ _)
  rw [el, er]

theorem lhs32_0 (i : S5000x64.Idx) (q : D32.contr.Idx) : (D32.lhsIdx i q 0).val = (i 0).val := by
  unfold DotDims.lhsIdx
  rw [dif_neg (show ¬(0 : Fin S5000x32.rank) ∈ D32.lhsBatch by decide), dif_pos (show (0 : Fin S5000x32.rank) ∈ D32.lhsNonContracting by decide)]
  rfl
theorem lhs32_1 (i : S5000x64.Idx) (q : D32.contr.Idx) : (D32.lhsIdx i q 1).val = (q ⟨0, by decide⟩).val :=
  D32.lhsIdx_val_of_single rfl i q
theorem rhs32_0 (i : S5000x64.Idx) (q : D32.contr.Idx) : (D32.rhsIdx i q 0).val = (q ⟨0, by decide⟩).val :=
  D32.rhsIdx_val_of_single rfl i q
theorem rhs32_1 (i : S5000x64.Idx) (q : D32.contr.Idx) : (D32.rhsIdx i q 1).val = (i 1).val := by
  unfold DotDims.rhsIdx
  rw [dif_neg (show ¬(1 : Fin S32x64.rank) ∈ D32.rhsBatch by decide), dif_pos (show (1 : Fin S32x64.rank) ∈ D32.rhsNonContracting by decide)]
  rfl

/-- A [5000,32] by [32,64] product accumulated into the zero block, read at row p and column q: the sum over the
    32 shared positions of the row's entry times the column's entry. -/
theorem mm32 {φ₁ φ₂ : FTy} (l : FVec Ideal S5000x32 φ₁) (r : FVec Ideal S32x64 φ₂) (p : Fin 5000) (q : Fin 64) :
    matmul D32 none l r (constant S5000x64 .f32 0x00000000#32) (ix2 p q) = ∑ k : Fin 32, l (ix2 p k) * r (ix2 k q) := by
  refine (Ideal.matmul_constant_zero_apply D32 none l r (ix2 p q)).trans ?_
  rw [← Equiv.sum_comp (contrEquiv1 D32 32 rfl rfl).symm]
  refine Finset.sum_congr rfl fun k _ => ?_
  have hk := contrEquiv1_symm_val D32 32 rfl rfl k
  have el : D32.lhsIdx (ix2 p q) ((contrEquiv1 D32 32 rfl rfl).symm k) = ix2 p k := funext fun a => Fin.ext (by
    match a with
    | ⟨0, _⟩ => exact lhs32_0 _ _
    | ⟨1, _⟩ => exact (lhs32_1 _ _).trans hk)
  have er : D32.rhsIdx (ix2 p q) ((contrEquiv1 D32 32 rfl rfl).symm k) = ix2 k q := funext fun a => Fin.ext (by
    match a with
    | ⟨0, _⟩ => exact (rhs32_0 _ _).trans hk
    | ⟨1, _⟩ => exact rhs32_1 _ _)
  rw [el, er]

set_option maxHeartbeats 400000 in
/-- Entry (p, q) of what one tile computes from its nine loaded blocks: the first layer's three sums and bias,
    the maximum with zero, the second layer's sum and bias. -/
theorem pay_apply (x0 x1 : Vec Ideal S5000x64 .f32) (x2 : Vec Ideal S5000x32 .f32) (x3 x4 : Vec Ideal S64x64 .f32)
    (x5 : Vec Ideal S32x64 .f32) (x6 : Vec Ideal S1x64 .f32) (x7 : Vec Ideal S64x64 .f32) (x8 : Vec Ideal S1x64 .f32)
    (p : Fin 5000) (q : Fin 64) :
    k0_pay1 x0 x1 x2 x3 x4 x5 x6 x7 x8 (ix2 p q)
      = (∑ k : Fin 64, max ((((∑ l : Fin 64, x0 (ix2 p l) * x3 (ix2 l k)) + (∑ l : Fin 64, x1 (ix2 p l) * x4 (ix2 l k)))
            + (∑ l : Fin 32, x2 (ix2 p l) * x5 (ix2 l k))) + x6 (ix2 0 k)) Cert.Gnn.Z * x7 (ix2 k q)) + x8 (ix2 0 q) := by
  unfold k0_pay1
  simp only [shapeCast_self]
  refine congrArg₂ (· + ·) ?_ (broadcastTo_1b_ab_apply _ _ p q)
  refine (mm64 _ _ p q).trans ?_
  refine Finset.sum_congr rfl fun k _ => ?_
  refine congrArg₂ (· * ·) ?_ rfl
  refine congrArg₂ max ?_ rfl
  refine congrArg₂ (· + ·) ?_ (broadcastTo_1b_ab_apply _ _ p k)
  refine congrArg₂ (· + ·) ?_ (mm32 _ _ p k)
  exact congrArg₂ (· + ·) (mm64 _ _ p k) (mm64 _ _ p k)

/-! ## Where each block sits in its array -/

theorem hz : (![0, 0] : Fin 2 → Nat) = fun _ => 0 := funext fun a => by fin_cases a <;> rfl

/-- The block index of every window at every grid point: the three edge-indexed inputs and the output take block
    t on the row axis; the six parameter arrays are one block each. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

set_option maxHeartbeats 400000 in
/-- Input 0's block at tile t reads its array 5000 t rows down: entry (p, l) of the block is entry (5000 t + p, l). -/
theorem blk0_read (V : (c : Dev nD) → (b : Ref sig .tc) → Buf (Elt Ideal) ((c : Thread nD τ).loc b)) (c : Dev nD) (t : Fin cfg0.N) (p : Fin 5000) (l : Fin 64) (e : Fin 800000)
    (he : e.val = 5000 * t.val + p.val) :
    (iblk0 V c 0 t : Vec Ideal S5000x64 .f32) (ix2 p l) = (V c main_v10 : S800000x64.Idx → EReal) (ix2 e l) := by
  obtain ⟨e0, e1, e2, e3, e4, e5, e6, e7, e8, e9, e10, e11, e12, e13, e14, e15, e16, e17, e18, e19⟩ := idx_facts t
  show (V c main_v10 : S800000x64.Idx → EReal) (((cfg0.win 0).blk t).view.emb (ix2 p l)) = _
  refine congrArg _ ?_
  funext a; apply Fin.ext
  match a with
  | ⟨0, _⟩ => show win0_0.index t (0 : Fin 2) * 5000 + 1 * p.val = e.val; omega
  | ⟨1, _⟩ => show win0_0.index t (1 : Fin 2) * 64 + 1 * l.val = l.val; omega

set_option maxHeartbeats 400000 in
/-- Input 1's block at tile t reads its array 5000 t rows down: entry (p, l) of the block is entry (5000 t + p, l). -/
theorem blk1_read (V : (c : Dev nD) → (b : Ref sig .tc) → Buf (Elt Ideal) ((c : Thread nD τ).loc b)) (c : Dev nD) (t : Fin cfg0.N) (p : Fin 5000) (l : Fin 64) (e : Fin 800000)
    (he : e.val = 5000 * t.val + p.val) :
    (iblk0 V c 1 t : Vec Ideal S5000x64 .f32) (ix2 p l) = (V c main_v17 : S800000x64.Idx → EReal) (ix2 e l) := by
  obtain ⟨e0, e1, e2, e3, e4, e5, e6, e7, e8, e9, e10, e11, e12, e13, e14, e15, e16, e17, e18, e19⟩ := idx_facts t
  show (V c main_v17 : S800000x64.Idx → EReal) (((cfg0.win 1).blk t).view.emb (ix2 p l)) = _
  refine congrArg _ ?_
  funext a; apply Fin.ext
  match a with
  | ⟨0, _⟩ => show win0_1.index t (0 : Fin 2) * 5000 + 1 * p.val = e.val; omega
  | ⟨1, _⟩ => show win0_1.index t (1 : Fin 2) * 64 + 1 * l.val = l.val; omega

set_option maxHeartbeats 400000 in
/-- Input 2's block at tile t reads its array 5000 t rows down: entry (p, l) of the block is entry (5000 t + p, l). -/
theorem blk2_read (V : (c : Dev nD) → (b : Ref sig .tc) → Buf (Elt Ideal) ((c : Thread nD τ).loc b)) (c : Dev nD) (t : Fin cfg0.N) (p : Fin 5000) (l : Fin 32) (e : Fin 800000)
    (he : e.val = 5000 * t.val + p.val) :
    (iblk0 V c 2 t : Vec Ideal S5000x32 .f32) (ix2 p l) = (V c main_arg2 : S800000x32.Idx → EReal) (ix2 e l) := by
  obtain ⟨e0, e1, e2, e3, e4, e5, e6, e7, e8, e9, e10, e11, e12, e13, e14, e15, e16, e17, e18, e19⟩ := idx_facts t
  show (V c main_arg2 : S800000x32.Idx → EReal) (((cfg0.win 2).blk t).view.emb (ix2 p l)) = _
  refine congrArg _ ?_
  funext a; apply Fin.ext
  match a with
  | ⟨0, _⟩ => show win0_2.index t (0 : Fin 2) * 5000 + 1 * p.val = e.val; omega
  | ⟨1, _⟩ => show win0_2.index t (1 : Fin 2) * 32 + 1 * l.val = l.val; omega

set_option maxHeartbeats 400000 in
/-- Input 3's one block is its whole array at every tile: entry (p, l) of the block is entry (p, l) of the array. -/
theorem blk3_read (V : (c : Dev nD) → (b : Ref sig .tc) → Buf (Elt Ideal) ((c : Thread nD τ).loc b)) (c : Dev nD) (t : Fin cfg0.N) (p : Fin 64) (l : Fin 64) (e : Fin 64)
    (he : e.val = p.val) :
    (iblk0 V c 3 t : Vec Ideal S64x64 .f32) (ix2 p l) = (V c main_v18 : S64x64.Idx → EReal) (ix2 e l) := by
  obtain ⟨e0, e1, e2, e3, e4, e5, e6, e7, e8, e9, e10, e11, e12, e13, e14, e15, e16, e17, e18, e19⟩ := idx_facts t
  show (V c main_v18 : S64x64.Idx → EReal) (((cfg0.win 3).blk t).view.emb (ix2 p l)) = _
  refine congrArg _ ?_
  funext a; apply Fin.ext
  match a with
  | ⟨0, _⟩ => show win0_3.index t (0 : Fin 2) * 64 + 1 * p.val = e.val; omega
  | ⟨1, _⟩ => show win0_3.index t (1 : Fin 2) * 64 + 1 * l.val = l.val; omega

set_option maxHeartbeats 400000 in
/-- Input 4's one block is its whole array at every tile: entry (p, l) of the block is entry (p, l) of the array. -/
theorem blk4_read (V : (c : Dev nD) → (b : Ref sig .tc) → Buf (Elt Ideal) ((c : Thread nD τ).loc b)) (c : Dev nD) (t : Fin cfg0.N) (p : Fin 64) (l : Fin 64) (e : Fin 64)
    (he : e.val = p.val) :
    (iblk0 V c 4 t : Vec Ideal S64x64 .f32) (ix2 p l) = (V c main_v19 : S64x64.Idx → EReal) (ix2 e l) := by
  obtain ⟨e0, e1, e2, e3, e4, e5, e6, e7, e8, e9, e10, e11, e12, e13, e14, e15, e16, e17, e18, e19⟩ := idx_facts t
  show (V c main_v19 : S64x64.Idx → EReal) (((cfg0.win 4).blk t).view.emb (ix2 p l)) = _
  refine congrArg _ ?_
  funext a; apply Fin.ext
  match a with
  | ⟨0, _⟩ => show win0_4.index t (0 : Fin 2) * 64 + 1 * p.val = e.val; omega
  | ⟨1, _⟩ => show win0_4.index t (1 : Fin 2) * 64 + 1 * l.val = l.val; omega

set_option maxHeartbeats 400000 in
/-- Input 5's one block is its whole array at every tile: entry (p, l) of the block is entry (p, l) of the array. -/
theorem blk5_read (V : (c : Dev nD) → (b : Ref sig .tc) → Buf (Elt Ideal) ((c : Thread nD τ).loc b)) (c : Dev nD) (t : Fin cfg0.N) (p : Fin 32) (l : Fin 64) (e : Fin 32)
    (he : e.val = p.val) :
    (iblk0 V c 5 t : Vec Ideal S32x64 .f32) (ix2 p l) = (V c main_v20 : S32x64.Idx → EReal) (ix2 e l) := by
  obtain ⟨e0, e1, e2, e3, e4, e5, e6, e7, e8, e9, e10, e11, e12, e13, e14, e15, e16, e17, e18, e19⟩ := idx_facts t
  show (V c main_v20 : S32x64.Idx → EReal) (((cfg0.win 5).blk t).view.emb (ix2 p l)) = _
  refine congrArg _ ?_
  funext a; apply Fin.ext
  match a with
  | ⟨0, _⟩ => show win0_5.index t (0 : Fin 2) * 32 + 1 * p.val = e.val; omega
  | ⟨1, _⟩ => show win0_5.index t (1 : Fin 2) * 64 + 1 * l.val = l.val; omega

set_option maxHeartbeats 400000 in
/-- Input 6's one block is its whole array at every tile: entry (p, l) of the block is entry (p, l) of the array. -/
theorem blk6_read (V : (c : Dev nD) → (b : Ref sig .tc) → Buf (Elt Ideal) ((c : Thread nD τ).loc b)) (c : Dev nD) (t : Fin cfg0.N) (p : Fin 1) (l : Fin 64) (e : Fin 1)
    (he : e.val = p.val) :
    (iblk0 V c 6 t : Vec Ideal S1x64 .f32) (ix2 p l) = (V c main_v21 : S1x64.Idx → EReal) (ix2 e l) := by
  obtain ⟨e0, e1, e2, e3, e4, e5, e6, e7, e8, e9, e10, e11, e12, e13, e14, e15, e16, e17, e18, e19⟩ := idx_facts t
  show (V c main_v21 : S1x64.Idx → EReal) (((cfg0.win 6).blk t).view.emb (ix2 p l)) = _
  refine congrArg _ ?_
  funext a; apply Fin.ext
  match a with
  | ⟨0, _⟩ => show win0_6.index t (0 : Fin 2) * 1 + 1 * p.val = e.val; omega
  | ⟨1, _⟩ => show win0_6.index t (1 : Fin 2) * 64 + 1 * l.val = l.val; omega

set_option maxHeartbeats 400000 in
/-- Input 7's one block is its whole array at every tile: entry (p, l) of the block is entry (p, l) of the array. -/
theorem blk7_read (V : (c : Dev nD) → (b : Ref sig .tc) → Buf (Elt Ideal) ((c : Thread nD τ).loc b)) (c : Dev nD) (t : Fin cfg0.N) (p : Fin 64) (l : Fin 64) (e : Fin 64)
    (he : e.val = p.val) :
    (iblk0 V c 7 t : Vec Ideal S64x64 .f32) (ix2 p l) = (V c main_arg5 : S64x64.Idx → EReal) (ix2 e l) := by
  obtain ⟨e0, e1, e2, e3, e4, e5, e6, e7, e8, e9, e10, e11, e12, e13, e14, e15, e16, e17, e18, e19⟩ := idx_facts t
  show (V c main_arg5 : S64x64.Idx → EReal) (((cfg0.win 7).blk t).view.emb (ix2 p l)) = _
  refine congrArg _ ?_
  funext a; apply Fin.ext
  match a with
  | ⟨0, _⟩ => show win0_7.index t (0 : Fin 2) * 64 + 1 * p.val = e.val; omega
  | ⟨1, _⟩ => show win0_7.index t (1 : Fin 2) * 64 + 1 * l.val = l.val; omega

set_option maxHeartbeats 400000 in
/-- Input 8's one block is its whole array at every tile: entry (p, l) of the block is entry (p, l) of the array. -/
theorem blk8_read (V : (c : Dev nD) → (b : Ref sig .tc) → Buf (Elt Ideal) ((c : Thread nD τ).loc b)) (c : Dev nD) (t : Fin cfg0.N) (p : Fin 1) (l : Fin 64) (e : Fin 1)
    (he : e.val = p.val) :
    (iblk0 V c 8 t : Vec Ideal S1x64 .f32) (ix2 p l) = (V c main_v22 : S1x64.Idx → EReal) (ix2 e l) := by
  obtain ⟨e0, e1, e2, e3, e4, e5, e6, e7, e8, e9, e10, e11, e12, e13, e14, e15, e16, e17, e18, e19⟩ := idx_facts t
  show (V c main_v22 : S1x64.Idx → EReal) (((cfg0.win 8).blk t).view.emb (ix2 p l)) = _
  refine congrArg _ ?_
  funext a; apply Fin.ext
  match a with
  | ⟨0, _⟩ => show win0_8.index t (0 : Fin 2) * 1 + 1 * p.val = e.val; omega
  | ⟨1, _⟩ => show win0_8.index t (1 : Fin 2) * 64 + 1 * l.val = l.val; omega

/-! ## One grid point writes its block of the edge formula -/

/-- If the nine loaded blocks agree with nine arrays on the entries the formula reads at row e, the body's result
    at (p, q) is the edge formula's output q of edge e. -/
theorem point_eq (A0 A1 : Cert.Gnn.E64.Idx → EReal) (A2 : Cert.Gnn.E32.Idx → EReal) (A3 A4 : Cert.Gnn.M64.Idx → EReal)
    (A5 : Cert.Gnn.M32.Idx → EReal) (A6 : Cert.Gnn.R64.Idx → EReal) (A7 : Cert.Gnn.M64.Idx → EReal) (A8 : Cert.Gnn.R64.Idx → EReal)
    (x0 x1 : Vec Ideal S5000x64 .f32) (x2 : Vec Ideal S5000x32 .f32) (x3 x4 : Vec Ideal S64x64 .f32)
    (x5 : Vec Ideal S32x64 .f32) (x6 : Vec Ideal S1x64 .f32) (x7 : Vec Ideal S64x64 .f32) (x8 : Vec Ideal S1x64 .f32)
    (p : Fin 5000) (q : Fin 64) (e : Fin 800000)
    (h0 : ∀ l, x0 (ix2 p l) = A0 (ix2 e l)) (h1 : ∀ l, x1 (ix2 p l) = A1 (ix2 e l)) (h2 : ∀ l, x2 (ix2 p l) = A2 (ix2 e l))
    (h3 : ∀ l k, x3 (ix2 l k) = A3 (ix2 l k)) (h4 : ∀ l k, x4 (ix2 l k) = A4 (ix2 l k)) (h5 : ∀ l k, x5 (ix2 l k) = A5 (ix2 l k))
    (h6 : ∀ k, x6 (ix2 0 k) = A6 (ix2 0 k)) (h7 : ∀ l k, x7 (ix2 l k) = A7 (ix2 l k)) (h8 : ∀ k, x8 (ix2 0 k) = A8 (ix2 0 k)) :
    k0_pay1 x0 x1 x2 x3 x4 x5 x6 x7 x8 (ix2 p q) = Cert.Gnn.edgeRows A0 A1 A2 A3 A4 A5 A6 A7 A8 (ix2 e q) := by
  rw [pay_apply, Cert.Gnn.edgeRows_ix2]
  unfold Cert.Gnn.edgeAtRows Cert.Gnn.edgeHidRows
  simp only [h0, h1, h2, h3, h4, h5, h6, h7, h8]

set_option maxHeartbeats 400000 in
/-- What grid point t writes back is block t of the edge formula of the nine arrays as the region finds them. -/
theorem flushed_eq (V : (c : Dev nD) → (b : Ref sig .tc) → Buf (Elt Ideal) ((c : Thread nD τ).loc b)) (c : Dev nD) (t : Fin cfg0.N) :
    (dat0 (F := Ideal) V c).flushed 9 t
      = ((cfg0.win 9).blk t).view.read (Elt Ideal) (Cert.Gnn.edgeRows (V c main_v10) (V c main_v17) (V c main_arg2) (V c main_v18) (V c main_v19) (V c main_v20) (V c main_v21) (V c main_arg5) (V c main_v22)) := by
  show (cfg0.win 9).cut (grid0.coords t) ((dat0 (F := Ideal) V c).after 9 t) = _
  rw [after0_9]
  unfold out0_9
  rw [View.canon_unit_zero hz]
  simp only [View.ld_unit_zero (S := S5000x64) hz, View.ld_unit_zero (S := S5000x32) hz, View.ld_unit_zero (S := S64x64) hz,
    View.ld_unit_zero (S := S32x64) hz, View.ld_unit_zero (S := S1x64) hz]
  funext j
  obtain ⟨p, q, rfl⟩ : ∃ (p : Fin 5000) (q : Fin 64), j = ix2 p q := ⟨j 0, j 1, eq_ix2 j⟩
  have hN : grid0.N = 160 := N_0
  have ht : t.val < grid0.N := t.isLt
  obtain ⟨e0, e1, e2, e3, e4, e5, e6, e7, e8, e9, e10, e11, e12, e13, e14, e15, e16, e17, e18, e19⟩ := idx_facts t
  have he : 5000 * t.val + p.val < 800000 := by omega
  show k0_pay1 (iblk0 V c 0 t) (iblk0 V c 1 t) (iblk0 V c 2 t) (iblk0 V c 3 t) (iblk0 V c 4 t) (iblk0 V c 5 t) (iblk0 V c 6 t)
      (iblk0 V c 7 t) (iblk0 V c 8 t) (ix2 p q)
    = (Cert.Gnn.edgeRows (V c main_v10) (V c main_v17) (V c main_arg2) (V c main_v18) (V c main_v19) (V c main_v20) (V c main_v21) (V c main_arg5) (V c main_v22)) (((cfg0.win 9).blk t).view.emb (ix2 p q))
  have hi : ((cfg0.win 9).blk t).view.emb (ix2 p q) = ix2 (⟨5000 * t.val + p.val, he⟩ : Fin 800000) q := by
    funext a; apply Fin.ext
    match a with
    | ⟨0, _⟩ => show win0_9.index t (0 : Fin 2) * 5000 + 1 * p.val = 5000 * t.val + p.val; omega
    | ⟨1, _⟩ => show win0_9.index t (1 : Fin 2) * 64 + 1 * q.val = q.val; omega
  rw [hi]
  exact point_eq (V c main_v10) (V c main_v17) (V c main_arg2) (V c main_v18) (V c main_v19) (V c main_v20) (V c main_v21) (V c main_arg5) (V c main_v22)
    (iblk0 V c 0 t) (iblk0 V c 1 t) (iblk0 V c 2 t) (iblk0 V c 3 t) (iblk0 V c 4 t) (iblk0 V c 5 t) (iblk0 V c 6 t) (iblk0 V c 7 t) (iblk0 V c 8 t)
    p q ⟨5000 * t.val + p.val, he⟩
    (fun l => blk0_read V c t p l _ rfl) (fun l => blk1_read V c t p l _ rfl) (fun l => blk2_read V c t p l _ rfl)
    (fun l k => blk3_read V c t l k l rfl) (fun l k => blk4_read V c t l k l rfl) (fun l k => blk5_read V c t l k l rfl)
    (fun k => blk6_read V c t 0 k 0 rfl) (fun l k => blk7_read V c t l k l rfl) (fun k => blk8_read V c t 0 k 0 rfl)

/-! ## The blocks tile the output array -/

/-- An index of the output array is in point t's block iff each coordinate is in the block's range on its axis. -/
theorem mem_blk (t : Fin cfg0.N) (i : S800000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v23).slice (win0_9.rect t)).set ↔ _
  rw [View.set_slice_whole, Rect.mem_set_unit]
  exact Iff.rfl

/-- Row r of the output lies in the block of point r / 5000, and every point writes its block back. -/
theorem cover (i : S800000x64.Idx) :
    ∃ t : Fin cfg0.N, (cfg0.win 9).flush t = true ∧ i ∈ ((cfg0.win 9).blk t).view.set := by
  have hN : grid0.N = 160 := N_0
  have hi0 : (i 0).val < 800000 := (i 0).isLt
  have hi1 : (i 1).val < 64 := (i 1).isLt
  have htl : (i 0).val / 5000 < grid0.N := by omega
  obtain ⟨e0, e1, e2, e3, e4, e5, e6, e7, e8, e9, e10, e11, e12, e13, e14, e15, e16, e17, e18, e19⟩ := idx_facts ⟨(i 0).val / 5000, htl⟩
  refine ⟨⟨(i 0).val / 5000, htl⟩, flush0_9 _, ?_⟩
  rw [mem_blk]
  intro a
  match a with
  | ⟨0, _⟩ =>
    show win0_9.index ⟨(i 0).val / 5000, htl⟩ (0 : Fin 2) * 5000 ≤ (i 0).val ∧ (i 0).val < win0_9.index ⟨(i 0).val / 5000, htl⟩ (0 : Fin 2) * 5000 + 5000
    rw [e18]; show (i 0).val / 5000 * 5000 ≤ (i 0).val ∧ (i 0).val < (i 0).val / 5000 * 5000 + 5000; omega
  | ⟨1, _⟩ =>
    show win0_9.index ⟨(i 0).val / 5000, htl⟩ (1 : Fin 2) * 64 ≤ (i 1).val ∧ (i 1).val < win0_9.index ⟨(i 0).val / 5000, htl⟩ (1 : Fin 2) * 64 + 64
    rw [e19]; omega

/-! ## The output array after the region -/

/-- After the 160 grid points the output array holds the edge formula of the nine input arrays, row by row. -/
theorem edge_final (V : (c : Dev nD) → (b : Ref sig .tc) → Buf (Elt Ideal) ((c : Thread nD τ).loc b)) (c : Dev nD) :
    (Gen.dat0 (F := Ideal) V c).arrAt 9 cfg0.N
      = Cert.Gnn.edgeRows (V c main_v10) (V c main_v17) (V c main_arg2) (V c main_v18) (V c main_v19) (V c main_v20) (V c main_v21) (V c main_arg5) (V c main_v22) :=
  (Gen.dat0 (F := Ideal) V c).arrAt_eq_of_cover 9 (Cert.Gnn.edgeRows (V c main_v10) (V c main_v17) (V c main_arg2) (V c main_v18) (V c main_v19) (V c main_v20) (V c main_v21) (V c main_arg5) (V c main_v22)) (fun t _ => flushed_eq V c t) cover

end Cert.KernelIdeal.EdgeRegion

end
-- ==== Proof.NodeRegion.lean ====
/-
  The node stage of the layer, read off the tiled computation: what the output array holds once all ten grid points
  have run, as ONE function of the seven input arrays, for any contents found at entry.

  The computation walks the 50000 node rows in ten blocks of 5000. At point t it loads rows 5000t … 5000t + 4999 of
  the node features x and of the aggregated messages agg, and the whole of the two first-layer weight matrices, the
  first bias row, the second-layer weight matrix and the second bias row. From these it forms, for row p of the block
  and column q,
      max( Σ_k max( Σ_l x[p,l]·W1x[l,k] + Σ_l agg[p,l]·W1a[l,k] + b1[0,k] , 0 ) · W2[k,q] + b2[0,q] + x[p,q] , 0 )
  and writes the block back to rows 5000t … 5000t + 4999 of the output. Three facts make this the specification's
  node formula at every index: (1) a matrix product accumulated onto zero, read at one entry, is the sum over the one
  contracted axis; rounding to a narrower format and a cast to the same shape are the identity on the extended reals;
  a [1,64] row broadcast over 5000 rows reads the row; (2) entry (p, ·) of a moving block at point t is entry
  (5000t + p, ·) of its array, and a block whose index stays (0, 0) and whose size is the array's is the array;
  (3) row r lies in the block of point r / 5000, so the ten blocks cover the array and every entry is the formula's.
-/
import proofs.«131791_j60619168416170_2_alg».proof.Proof.Gen.KernelIdeal.Frame
import proofs.«131791_j60619168416170_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.NodeRegion

open Idealize.ShloMosaic Idealize.ShloMosaic.TcCoe Idealize.SL.Sem Idealize.ShloMosaic.ValueIdx Cert.KernelIdeal Cert.KernelIdeal.Gen

/-! ## A [5000,64] × [64,64] product into a zero accumulator, read at one entry -/

/-- The left operand's index at output entry `i` keeps the output's row. -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- The right operand's index at output entry `i` keeps the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the product of a [5000,64] and a [64,64] matrix accumulated onto zero is the sum over the 64 shared
    positions of row p of the first times column q of the second: the one contracted axis is re-indexed by `Fin 64`. -/
theorem matmul_at {φ₁ φ₂ : FTy} (a : FVec Ideal S5000x64 φ₁) (b : FVec Ideal S64x64 φ₂) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhs_col _ _)
  rw [el, er]

/-! ## The body's arithmetic at one entry of a block -/

/-- Entry (p, q) of what the body computes from its loaded blocks: the first layer's two products summed, the bias row
    added, rectified at zero; the second layer's product, its bias row, the residual entry added, rectified at zero.
    Rounding to the narrower format and the casts to the same shape change nothing on the extended reals. -/
theorem pay_at (x0 x1 : Vec Ideal S5000x64 .f32) (x2 x3 : Vec Ideal S64x64 .f32) (x4 : Vec Ideal S1x64 .f32) (x5 : Vec Ideal S64x64 .f32) (x6 : Vec Ideal S1x64 .f32) (x7 : Vec Ideal S5000x64 .f32) (p : Fin 5000) (q : Fin 64) :
    Gen.k1_pay1 x0 x1 x2 x3 x4 x5 x6 x7 (ix2 p q) = max (((∑ k : Fin 64, max (((∑ l : Fin 64, x0 (ix2 p l) * x2 (ix2 l k)) + (∑ l : Fin 64, x1 (ix2 p l) * x3 (ix2 l k))) + x4 (ix2 0 k)) Cert.Gnn.Z * x5 (ix2 k q)) + x6 (ix2 0 q)) + x7 (ix2 p q)) Cert.Gnn.Z := by
  unfold Gen.k1_pay1
  simp only [shapeCast_self]
  simp only [maximumf_apply, addf_apply, truncf_apply, broadcast_apply, matmul_at, broadcastTo_1b_ab_apply]
  rfl

/-- The same entry as the specification's node formula at row `n`, once every loaded entry the formula touches is known
    to be the corresponding array's entry: row p of the two moving blocks is row n of their arrays, and the weight and
    bias blocks are their whole arrays. The block loaded for the residual is the node-feature block again. -/
theorem pay_eq_node (A0 A1 : Cert.Gnn.N64.Idx → EReal) (B2 B3 : Cert.Gnn.M64.Idx → EReal) (B4 : Cert.Gnn.R64.Idx → EReal)
    (B5 : Cert.Gnn.M64.Idx → EReal) (B6 : Cert.Gnn.R64.Idx → EReal)
    (x0 x1 : Vec Ideal S5000x64 .f32) (x2 x3 : Vec Ideal S64x64 .f32) (x4 : Vec Ideal S1x64 .f32) (x5 : Vec Ideal S64x64 .f32) (x6 : Vec Ideal S1x64 .f32)
    (n : Fin 50000) (p : Fin 5000) (q : Fin 64)
    (h0 : ∀ l : Fin 64, x0 (ix2 p l) = A0 (ix2 n l)) (h1 : ∀ l : Fin 64, x1 (ix2 p l) = A1 (ix2 n l))
    (h2 : ∀ l k : Fin 64, x2 (ix2 l k) = B2 (ix2 l k)) (h3 : ∀ l k : Fin 64, x3 (ix2 l k) = B3 (ix2 l k))
    (h4 : ∀ k : Fin 64, x4 (ix2 0 k) = B4 (ix2 0 k)) (h5 : ∀ l k : Fin 64, x5 (ix2 l k) = B5 (ix2 l k))
    (h6 : ∀ k : Fin 64, x6 (ix2 0 k) = B6 (ix2 0 k)) :
    Gen.k1_pay1 x0 x1 x2 x3 x4 x5 x6 x0 (ix2 p q) = Cert.Gnn.nodeRows A0 A1 B2 B3 B4 B5 B6 (ix2 n q) := by
  rw [pay_at, Cert.Gnn.nodeRows_ix2]
  unfold Cert.Gnn.nodeAtRows Cert.Gnn.nodeHidRows
  simp only [h0, h1, h2, h3, h4, h5, h6]

/-! ## Where each window's block sits at a grid point -/

theorem hz : (![0, 0] : Fin 2 → Nat) = fun _ => 0 := funext fun a => by fin_cases a <;> rfl

/-- The printed index maps, decided once over the ten grid points: the node-feature, aggregate and output windows are at
    block (t, 0); the four weight and bias windows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- Entry (y₀, y₁) of the node-feature block at point t is entry (5000·t + y₀, y₁) of the node-feature array. -/
theorem blk0_at (c : Dev nD) (t : Fin cfg1.N) (y : S5000x64.Idx) (i : S50000x64.Idx)
    (h0 : (i 0).val = 5000 * t.val + (y 0).val) (h1 : (i 1).val = (y 1).val) :
    (Gen.iblk1 (F := Ideal) V c 0 t : Vec Ideal S5000x64 .f32) y = (V c main_arg0 : S50000x64.Idx → EReal) i := by
  obtain ⟨e0, e1, -⟩ := idx_facts t
  show V c main_arg0 (((cfg1.win 0).blk t).view.emb y) = V c main_arg0 i
  refine congrArg (V c main_arg0) (funext fun a => Fin.ext ?_)
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- Entry (y₀, y₁) of the aggregate block at point t is entry (5000·t + y₀, y₁) of the aggregate array. -/
theorem blk1_at (c : Dev nD) (t : Fin cfg1.N) (y : S5000x64.Idx) (i : S50000x64.Idx)
    (h0 : (i 0).val = 5000 * t.val + (y 0).val) (h1 : (i 1).val = (y 1).val) :
    (Gen.iblk1 (F := Ideal) V c 1 t : Vec Ideal S5000x64 .f32) y = (V c main_v31 : S50000x64.Idx → EReal) i := by
  obtain ⟨-, -, e0, e1, -⟩ := idx_facts t
  show V c main_v31 (((cfg1.win 1).blk t).view.emb y) = V c main_v31 i
  refine congrArg (V c main_v31) (funext fun a => Fin.ext ?_)
  match a with
  | ⟨0, _⟩ => show win1_1.index t (0 : Fin 2) * 5000 + 1 * (y 0).val = (i 0).val; omega
  | ⟨1, _⟩ => show win1_1.index t (1 : Fin 2) * 64 + 1 * (y 1).val = (i 1).val; omega

/-- The first weight block at every point is the whole first weight array. -/
theorem blk2_at (c : Dev nD) (t : Fin cfg1.N) (y : S64x64.Idx) :
    (Gen.iblk1 (F := Ideal) V c 2 t : Vec Ideal S64x64 .f32) y = (V c main_v32 : S64x64.Idx → EReal) y := by
  obtain ⟨-, -, -, -, e0, e1, -⟩ := idx_facts t
  show V c main_v32 (((cfg1.win 2).blk t).view.emb y) = V c main_v32 y
  refine congrArg (V c main_v32) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The second weight block at every point is the whole second weight array. -/
theorem blk3_at (c : Dev nD) (t : Fin cfg1.N) (y : S64x64.Idx) :
    (Gen.iblk1 (F := Ideal) V c 3 t : Vec Ideal S64x64 .f32) y = (V c main_v33 : S64x64.Idx → EReal) y := by
  obtain ⟨-, -, -, -, -, -, e0, e1, -⟩ := idx_facts t
  show V c main_v33 (((cfg1.win 3).blk t).view.emb y) = V c main_v33 y
  refine congrArg (V c main_v33) (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The first bias block at every point is the whole first bias row. -/
theorem blk4_at (c : Dev nD) (t : Fin cfg1.N) (y : S1x64.Idx) :
    (Gen.iblk1 (F := Ideal) V c 4 t : Vec Ideal S1x64 .f32) y = (V c main_v34 : S1x64.Idx → EReal) y := by
  obtain ⟨-, -, -, -, -, -, -, -, e0, e1, -⟩ := idx_facts t
  show V c main_v34 (((cfg1.win 4).blk t).view.emb y) = V c main_v34 y
  refine congrArg (V c main_v34) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The second-layer weight block at every point is the whole second-layer weight array. -/
theorem blk5_at (c : Dev nD) (t : Fin cfg1.N) (y : S64x64.Idx) :
    (Gen.iblk1 (F := Ideal) V c 5 t : Vec Ideal S64x64 .f32) y = (V c main_arg9 : S64x64.Idx → EReal) y := by
  obtain ⟨-, -, -, -, -, -, -, -, -, -, e0, e1, -⟩ := idx_facts t
  show V c main_arg9 (((cfg1.win 5).blk t).view.emb y) = V c main_arg9 y
  refine congrArg (V c main_arg9) (funext fun a => Fin.ext ?_)
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- The second bias block at every point is the whole second bias row. -/
theorem blk6_at (c : Dev nD) (t : Fin cfg1.N) (y : S1x64.Idx) :
    (Gen.iblk1 (F := Ideal) V c 6 t : Vec Ideal S1x64 .f32) y = (V c main_v35 : S1x64.Idx → EReal) y := by
  obtain ⟨-, -, -, -, -, -, -, -, -, -, -, -, e0, e1, -⟩ := idx_facts t
  show V c main_v35 (((cfg1.win 6).blk t).view.emb y) = V c main_v35 y
  refine congrArg (V c main_v35) (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

/-! ## What one grid point writes back, and the whole array -/

/-- WHAT POINT t WRITES BACK to the output array: rows 5000·t … 5000·t + 4999 of the node formula of the seven input
    arrays as the region finds them. -/
theorem flushed_eq (c : Dev nD) (t : Fin cfg1.N) :
    (Gen.dat1 (F := Ideal) V c).flushed 7 t
      = ((cfg1.win 7).blk t).view.read (Elt Ideal)
          (Cert.Gnn.nodeRows (V c main_arg0) (V c main_v31) (V c main_v32) (V c main_v33) (V c main_v34) (V c main_arg9) (V c main_v35)) := by
  show (cfg1.win 7).cut (grid1.coords t) ((Gen.dat1 V c).after 7 t) = _
  rw [Gen.after1_7]
  unfold Gen.out1_7
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have ht : t.val < 10 := lt_of_lt_of_eq t.isLt Gen.N_1
  have hp : p.val < 5000 := p.isLt
  have hn : 5000 * t.val + p.val < 50000 := by omega
  obtain ⟨-, -, -, -, -, -, -, -, -, -, -, -, -, -, e0, e1⟩ := idx_facts t
  have hemb : ((cfg1.win 7).blk t).view.emb (ix2 p q) = (ix2 (⟨5000 * t.val + p.val, hn⟩ : Fin 50000) q : S50000x64.Idx) :=
    funext fun a => Fin.ext (by
      match a with
      | ⟨0, _⟩ => show win1_7.index t (0 : Fin 2) * 5000 + 1 * p.val = 5000 * t.val + p.val; omega
      | ⟨1, _⟩ => show win1_7.index t (1 : Fin 2) * 64 + 1 * q.val = q.val; omega)
  show Gen.k1_pay1 (Gen.iblk1 V c 0 t) (Gen.iblk1 V c 1 t) (Gen.iblk1 V c 2 t) (Gen.iblk1 V c 3 t) (Gen.iblk1 V c 4 t) (Gen.iblk1 V c 5 t) (Gen.iblk1 V c 6 t) (Gen.iblk1 V c 0 t) (ix2 p q)
      = Cert.Gnn.nodeRows (V c main_arg0) (V c main_v31) (V c main_v32) (V c main_v33) (V c main_v34) (V c main_arg9) (V c main_v35) (((cfg1.win 7).blk t).view.emb (ix2 p q))
  rw [hemb]
  exact pay_eq_node (V c main_arg0) (V c main_v31) (V c main_v32) (V c main_v33) (V c main_v34) (V c main_arg9) (V c main_v35)
    (Gen.iblk1 V c 0 t) (Gen.iblk1 V c 1 t) (Gen.iblk1 V c 2 t) (Gen.iblk1 V c 3 t) (Gen.iblk1 V c 4 t) (Gen.iblk1 V c 5 t) (Gen.iblk1 V c 6 t)
    ⟨5000 * t.val + p.val, hn⟩ p q
    (fun l => blk0_at V c t (ix2 p l) (ix2 ⟨5000 * t.val + p.val, hn⟩ l) rfl rfl)
    (fun l => blk1_at V c t (ix2 p l) (ix2 ⟨5000 * t.val + p.val, hn⟩ l) rfl rfl)
    (fun l k => blk2_at V c t (ix2 l k)) (fun l k => blk3_at V c t (ix2 l k)) (fun k => blk4_at V c t (ix2 0 k))
    (fun l k => blk5_at V c t (ix2 l k)) (fun k => blk6_at V c t (ix2 0 k))

/-- An index of the output array is in point t's block iff each coordinate is in the block's range on its axis. -/
theorem mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v36).slice (win1_7.rect t)).set ↔ _
  rw [View.set_slice_whole, Rect.mem_set_unit]
  exact Iff.rfl

/-- Every row r of the output array is written back by the point r / 5000: the ten blocks of 5000 rows tile the 50000. -/
theorem cover (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  have hN : grid1.N = 10 := Gen.N_1
  have hlt : (i 0).val / 5000 < grid1.N := by omega
  refine ⟨⟨(i 0).val / 5000, hlt⟩, Gen.flush1_7 _, ?_⟩
  rw [mem_blk]
  obtain ⟨-, -, -, -, -, -, -, -, -, -, -, -, -, -, e0, e1⟩ := idx_facts ⟨(i 0).val / 5000, hlt⟩
  intro a
  match a with
  | ⟨0, _⟩ =>
    show win1_7.index ⟨(i 0).val / 5000, hlt⟩ (0 : Fin 2) * 5000 ≤ (i 0).val ∧ (i 0).val < win1_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, hlt⟩ (1 : Fin 2) * 64 ≤ (i 1).val ∧ (i 1).val < win1_7.index ⟨(i 0).val / 5000, hlt⟩ (1 : Fin 2) * 64 + 64
    rw [e1]; omega

/-- THE OUTPUT ARRAY after the region, whatever the region found: the node formula of the seven input arrays, at every index. -/
theorem node_final (V : (c : Dev nD) → (b : Ref sig .tc) → Buf (Elt Ideal) ((c : Thread nD τ).loc b)) (c : Dev nD) :
    (Gen.dat1 (F := Ideal) V c).arrAt 7 cfg1.N
      = Cert.Gnn.nodeRows (V c main_arg0) (V c main_v31) (V c main_v32) (V c main_v33) (V c main_v34) (V c main_arg9) (V c main_v35) :=
  (Gen.dat1 (F := Ideal) V c).arrAt_eq_of_cover 7
    (Cert.Gnn.nodeRows (V c main_arg0) (V c main_v31) (V c main_v32) (V c main_v33) (V c main_v34) (V c main_arg9) (V c main_v35))
    (fun t _ => flushed_eq V c t) cover

end Cert.KernelIdeal.NodeRegion

end
-- ==== Proof.RefStages.lean ====
/-
  The reference program's two dense stages are the specification's functions.

  EDGE STAGE. At edge e and output j the reference computes (Σ_k h[e,k]·W2[k,j]) + b2[j] with
  h[e,k] = max((Σ_{l<160} cat[e,l]·W1[l,k]) + b1[k], 0), where cat[e,·] is the row xr[e,·] (64 entries) followed by
  xc[e,·] (64 entries) followed by ea[e,·] (32 entries). The specification writes the first-layer sum already cut at 64
  and 128. Two facts connect them: a sum over 160 consecutive positions is the sum over its three consecutive
  stretches (true in every additive commutative monoid, so nothing about finiteness of the entries is used), and a
  joined row read at position 64·p + l of stretch p is the p-th row at position l.
  NODE STAGE. The same with two stretches of 64 (x[n,·] then agg[n,·]), then the residual x[n,j] is added and the
  result is compared with zero once more.
  The two endpoint gathers and the scatter-add are never opened: each occurs as the same term on both sides.
-/
import proofs.«131791_j60619168416170_2_alg».proof.Proof.Gen.ReferenceIdeal.Read
import proofs.«131791_j60619168416170_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx Cert.ReferenceIdeal Cert.ReferenceIdeal.Read

/-! ## A sum over consecutive positions is the sum of its consecutive stretches -/

/-- 160 positions: the first 64, the next 64, the last 32. -/
theorem sum_160 {M : Type*} [AddCommMonoid M] (f : Fin 160 → M) :
    ∑ l : Fin 160, f l
      = ((∑ l : Fin 64, f ⟨l.val, by omega⟩) + (∑ l : Fin 64, f ⟨64 + l.val, by omega⟩))
          + (∑ l : Fin 32, f ⟨128 + l.val, by omega⟩) := by
  have h1 := Fin.sum_univ_add (a := 128) (b := 32) f
  have h2 := Fin.sum_univ_add (a := 64) (b := 64) (fun i : Fin 128 => f (Fin.castAdd 32 i))
  rw [h2] at h1
  exact h1

/-- 128 positions: the first 64, the last 64. -/
theorem sum_128 {M : Type*} [AddCommMonoid M] (f : Fin 128 → M) :
    ∑ l : Fin 128, f l = (∑ l : Fin 64, f ⟨l.val, by omega⟩) + (∑ l : Fin 64, f ⟨64 + l.val, by omega⟩) :=
  Fin.sum_univ_add (a := 64) (b := 64) f

/-! ## A joined row read inside one of its stretches

  Rows of 64, 64 and 32 entries joined along axis 1: position l of the first stretch is the first row's entry l,
  position 64 + l the second row's, position 128 + l the third row's. Stated for any three arrays. -/

section Joined
variable {α : Type}

theorem joined3_first (y0 y1 : S800000x64.Idx → α) (y2 : S800000x32.Idx → α)
    (h : Shape.Concatenates [S800000x64, S800000x64, S800000x32] S800000x160 1) (e : Fin 800000) (l : Fin 64) :
    concatenate S800000x160 1 [⟨S800000x64, y0⟩, ⟨S800000x64, y1⟩, ⟨S800000x32, y2⟩] h (ix2 e ⟨l.val, by omega⟩)
      = y0 (ix2 e l) :=
  concatenate_apply_piece (t := S800000x160) (1 : Fin S800000x160.rank)
    [⟨S800000x64, y0⟩, ⟨S800000x64, y1⟩, ⟨S800000x32, y2⟩] h (ix2 e ⟨l.val, by omega⟩)
    0 (by show (0 : ℕ) < 3; omega) S800000x64 y0 rfl rfl 0 rfl (ix2 e l)
    (fun b hb => by
      match b with
      | ⟨0, _⟩ => rfl
      | ⟨1, _⟩ => exact absurd (Fin.ext rfl) hb)
    (Nat.zero_add _)

theorem joined3_second (y0 y1 : S800000x64.Idx → α) (y2 : S800000x32.Idx → α)
    (h : Shape.Concatenates [S800000x64, S800000x64, S800000x32] S800000x160 1) (e : Fin 800000) (l : Fin 64) :
    concatenate S800000x160 1 [⟨S800000x64, y0⟩, ⟨S800000x64, y1⟩, ⟨S800000x32, y2⟩] h (ix2 e ⟨64 + l.val, by omega⟩)
      = y1 (ix2 e l) :=
  concatenate_apply_piece (t := S800000x160) (1 : Fin S800000x160.rank)
    [⟨S800000x64, y0⟩, ⟨S800000x64, y1⟩, ⟨S800000x32, y2⟩] h (ix2 e ⟨64 + l.val, by omega⟩)
    1 (by show (1 : ℕ) < 3; omega) S800000x64 y1 rfl rfl 64 rfl (ix2 e l)
    (fun b hb => by
      match b with
      | ⟨0, _⟩ => rfl
      | ⟨1, _⟩ => exact absurd (Fin.ext rfl) hb)
    rfl

theorem joined3_third (y0 y1 : S800000x64.Idx → α) (y2 : S800000x32.Idx → α)
    (h : Shape.Concatenates [S800000x64, S800000x64, S800000x32] S800000x160 1) (e : Fin 800000) (l : Fin 32) :
    concatenate S800000x160 1 [⟨S800000x64, y0⟩, ⟨S800000x64, y1⟩, ⟨S800000x32, y2⟩] h (ix2 e ⟨128 + l.val, by omega⟩)
      = y2 (ix2 e l) :=
  concatenate_apply_piece (t := S800000x160) (1 : Fin S800000x160.rank)
    [⟨S800000x64, y0⟩, ⟨S800000x64, y1⟩, ⟨S800000x32, y2⟩] h (ix2 e ⟨128 + l.val, by omega⟩)
    2 (by show (2 : ℕ) < 3; omega) S800000x32 y2 rfl rfl 128 rfl (ix2 e l)
    (fun b hb => by
      match b with
      | ⟨0, _⟩ => rfl
      | ⟨1, _⟩ => exact absurd (Fin.ext rfl) hb)
    rfl

/-- Two rows of 64 entries joined along axis 1. -/
theorem joined2_first (y0 y1 : S50000x64.Idx → α)
    (h : Shape.Concatenates [S50000x64, S50000x64] S50000x128 1) (n : Fin 50000) (l : Fin 64) :
    concatenate S50000x128 1 [⟨S50000x64, y0⟩, ⟨S50000x64, y1⟩] h (ix2 n ⟨l.val, by omega⟩) = y0 (ix2 n l) :=
  concatenate_apply_piece (t := S50000x128) (1 : Fin S50000x128.rank)
    [⟨S50000x64, y0⟩, ⟨S50000x64, y1⟩] h (ix2 n ⟨l.val, by omega⟩)
    0 (by show (0 : ℕ) < 2; omega) S50000x64 y0 rfl rfl 0 rfl (ix2 n l)
    (fun b hb => by
      match b with
      | ⟨0, _⟩ => rfl
      | ⟨1, _⟩ => exact absurd (Fin.ext rfl) hb)
    (Nat.zero_add _)

theorem joined2_second (y0 y1 : S50000x64.Idx → α)
    (h : Shape.Concatenates [S50000x64, S50000x64] S50000x128 1) (n : Fin 50000) (l : Fin 64) :
    concatenate S50000x128 1 [⟨S50000x64, y0⟩, ⟨S50000x64, y1⟩] h (ix2 n ⟨64 + l.val, by omega⟩) = y1 (ix2 n l) :=
  concatenate_apply_piece (t := S50000x128) (1 : Fin S50000x128.rank)
    [⟨S50000x64, y0⟩, ⟨S50000x64, y1⟩] h (ix2 n ⟨64 + l.val, by omega⟩)
    1 (by show (1 : ℕ) < 2; omega) S50000x64 y1 rfl rfl 64 rfl (ix2 n l)
    (fun b hb => by
      match b with
      | ⟨0, _⟩ => rfl
      | ⟨1, _⟩ => exact absurd (Fin.ext rfl) hb)
    rfl

end Joined

/-! ## The comparison value and the bias rows

  The rectifier's second operand is the zero word spread over the array; a bias vector spread over the rows reads,
  at (row, k), the vector's entry k. -/

theorem zero_edge (i : S800000x64.Idx) : val_main_call0_v0 (F := Ideal) i = Cert.Gnn.Z := by
  rw [val_main_call0_v0_apply, val_main_call0_cst_apply]
  exact Ideal.ofBits_def _

theorem zero_node_hid (i : S50000x64.Idx) : val_main_call1_v0 (F := Ideal) i = Cert.Gnn.Z := by
  rw [val_main_call1_v0_apply, val_main_call1_cst_apply]
  exact Ideal.ofBits_def _

theorem zero_node_out (i : S50000x64.Idx) : val_main_call2_v0 (F := Ideal) i = Cert.Gnn.Z := by
  rw [val_main_call2_v0_apply, val_main_call2_cst_apply]
  exact Ideal.ofBits_def _

theorem bias_edge_hid (x4 : (⟨S64, .f32⟩ : BufTy).Contents (Elt Ideal)) (e : Fin 800000) (k : Fin 64) :
    val_main_v21 (F := Ideal) x4 (ix2 e k) = x4 (ix1 k) := by
  rw [val_main_v21_apply, val_main_v20_apply]
  exact congrArg x4 (funext fun a => by match a with | ⟨0, _⟩ => rfl)

theorem bias_edge_out (x6 : (⟨S64, .f32⟩ : BufTy).Contents (Elt Ideal)) (e : Fin 800000) (j : Fin 64) :
    val_main_v26 (F := Ideal) x6 (ix2 e j) = x6 (ix1 j) := by
  rw [val_main_v26_apply, val_main_v25_apply]
  exact congrArg x6 (funext fun a => by match a with | ⟨0, _⟩ => rfl)

theorem bias_node_hid (x8 : (⟨S64, .f32⟩ : BufTy).Contents (Elt Ideal)) (n : Fin 50000) (k : Fin 64) :
    val_main_v39 (F := Ideal) x8 (ix2 n k) = x8 (ix1 k) := by
  rw [val_main_v39_apply, val_main_v38_apply]
  exact congrArg x8 (funext fun a => by match a with | ⟨0, _⟩ => rfl)

theorem bias_node_out (x10 : (⟨S64, .f32⟩ : BufTy).Contents (Elt Ideal)) (n : Fin 50000) (j : Fin 64) :
    val_main_v44 (F := Ideal) x10 (ix2 n j) = x10 (ix1 j) := by
  rw [val_main_v44_apply, val_main_v43_apply]
  exact congrArg x10 (funext fun a => by match a with | ⟨0, _⟩ => rfl)

/-! ## The contractions' operand positions, by coordinates

  Entry (r, c) of a product of a matrix with rows r and a matrix with columns c sums, over the contracted position
  l, the left operand at (r, l) times the right operand at (l, c). -/

theorem left_edge_hid (e : Fin 800000) (k : Fin 64) (l : Fin 160) : lidx_main_v19 (ix2 e k) l = ix2 e l :=
  funext fun a => by
    match a with
    | ⟨0, _⟩ => rfl
    | ⟨1, _⟩ => rfl
theorem right_edge_hid (e : Fin 800000) (k : Fin 64) (l : Fin 160) : ridx_main_v19 (ix2 e k) l = ix2 l k :=
  funext fun a => by
    match a with
    | ⟨0, _⟩ => rfl
    | ⟨1, _⟩ => rfl
theorem left_edge_out (e : Fin 800000) (j : Fin 64) (k : Fin 64) : lidx_main_v24 (ix2 e j) k = ix2 e k :=
  funext fun a => by
    match a with
    | ⟨0, _⟩ => rfl
    | ⟨1, _⟩ => rfl
theorem right_edge_out (e : Fin 800000) (j : Fin 64) (k : Fin 64) : ridx_main_v24 (ix2 e j) k = ix2 k j :=
  funext fun a => by
    match a with
    | ⟨0, _⟩ => rfl
    | ⟨1, _⟩ => rfl
theorem left_node_hid (n : Fin 50000) (k : Fin 64) (l : Fin 128) : lidx_main_v37 (ix2 n k) l = ix2 n l :=
  funext fun a => by
    match a with
    | ⟨0, _⟩ => rfl
    | ⟨1, _⟩ => rfl
theorem right_node_hid (n : Fin 50000) (k : Fin 64) (l : Fin 128) : ridx_main_v37 (ix2 n k) l = ix2 l k :=
  funext fun a => by
    match a with
    | ⟨0, _⟩ => rfl
    | ⟨1, _⟩ => rfl
theorem left_node_out (n : Fin 50000) (j : Fin 64) (k : Fin 64) : lidx_main_v42 (ix2 n j) k = ix2 n k :=
  funext fun a => by
    match a with
    | ⟨0, _⟩ => rfl
    | ⟨1, _⟩ => rfl
theorem right_node_out (n : Fin 50000) (j : Fin 64) (k : Fin 64) : ridx_main_v42 (ix2 n j) k = ix2 k j :=
  funext fun a => by
    match a with
    | ⟨0, _⟩ => rfl
    | ⟨1, _⟩ => rfl

/-! ## The edge stage -/

/-- The joined edge row inside each of its three stretches. -/
theorem edge_row_first (x0 : (⟨S50000x64, .f32⟩ : BufTy).Contents (Elt Ideal)) (x1 : (⟨S2x800000, .i32⟩ : BufTy).Contents (Elt Ideal)) (x2 : (⟨S800000x32, .f32⟩ : BufTy).Contents (Elt Ideal)) (e : Fin 800000) (l : Fin 64) :
    val_main_v18 (F := Ideal) x0 x1 x2 (ix2 e ⟨l.val, by omega⟩) = val_main_v10 (F := Ideal) x0 x1 (ix2 e l) := by
  unfold val_main_v18
  generalize val_main_v10 (F := Ideal) x0 x1 = y0
  generalize val_main_v17 (F := Ideal) x0 x1 = y1
  exact joined3_first y0 y1 x2 _ e l

theorem edge_row_second (x0 : (⟨S50000x64, .f32⟩ : BufTy).Contents (Elt Ideal)) (x1 : (⟨S2x800000, .i32⟩ : BufTy).Contents (Elt Ideal)) (x2 : (⟨S800000x32, .f32⟩ : BufTy).Contents (Elt Ideal)) (e : Fin 800000) (l : Fin 64) :
    val_main_v18 (F := Ideal) x0 x1 x2 (ix2 e ⟨64 + l.val, by omega⟩) = val_main_v17 (F := Ideal) x0 x1 (ix2 e l) := by
  unfold val_main_v18
  generalize val_main_v10 (F := Ideal) x0 x1 = y0
  generalize val_main_v17 (F := Ideal) x0 x1 = y1
  exact joined3_second y0 y1 x2 _ e l

theorem edge_row_third (x0 : (⟨S50000x64, .f32⟩ : BufTy).Contents (Elt Ideal)) (x1 : (⟨S2x800000, .i32⟩ : BufTy).Contents (Elt Ideal)) (x2 : (⟨S800000x32, .f32⟩ : BufTy).Contents (Elt Ideal)) (e : Fin 800000) (l : Fin 32) :
    val_main_v18 (F := Ideal) x0 x1 x2 (ix2 e ⟨128 + l.val, by omega⟩) = x2 (ix2 e l) := by
  unfold val_main_v18
  generalize val_main_v10 (F := Ideal) x0 x1 = y0
  generalize val_main_v17 (F := Ideal) x0 x1 = y1
  exact joined3_third y0 y1 x2 _ e l

/-- The first layer's product at (e, k): the sum over the joined row, cut into its three stretches. -/
theorem edge_first_layer (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S160x64, .f32⟩ : BufTy).Contents (Elt Ideal)) (e : Fin 800000) (k : Fin 64) :
    val_main_v19 (F := Ideal) x0 x1 x2 x3 (ix2 e k)
      = ((∑ l : Fin 64, val_main_v10 (F := Ideal) x0 x1 (ix2 e l) * x3 (ix2 ⟨l.val, by omega⟩ k))
          + (∑ l : Fin 64, val_main_v17 (F := Ideal) x0 x1 (ix2 e l) * x3 (ix2 ⟨64 + l.val, by omega⟩ k)))
        + (∑ l : Fin 32, x2 (ix2 e l) * x3 (ix2 ⟨128 + l.val, by omega⟩ k)) := by
  have h : val_main_v19 (F := Ideal) x0 x1 x2 x3 (ix2 e k)
      = ∑ l : Fin 160, val_main_v18 (F := Ideal) x0 x1 x2 (ix2 e l) * x3 (ix2 l k) :=
    (val_main_v19_apply x0 x1 x2 x3 (ix2 e k)).trans (Finset.sum_congr rfl fun l _ => by
      rw [left_edge_hid, right_edge_hid])
  rw [h, sum_160]
  refine congrArg₂ (· + ·) (congrArg₂ (· + ·) ?_ ?_) ?_
  · exact Finset.sum_congr rfl fun l _ => by rw [edge_row_first]
  · exact Finset.sum_congr rfl fun l _ => by rw [edge_row_second]
  · exact Finset.sum_congr rfl fun l _ => by rw [edge_row_third]

/-- The hidden unit k of edge e. -/
theorem edge_hidden (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S160x64, .f32⟩ : BufTy).Contents (Elt Ideal)) (x4 : (⟨S64, .f32⟩ : BufTy).Contents (Elt Ideal)) (e : Fin 800000) (k : Fin 64) :
    val_main_v23 (F := Ideal) x0 x1 x2 x3 x4 (ix2 e k)
      = Cert.Gnn.edgeHidWhole (val_main_v10 (F := Ideal) x0 x1) (val_main_v17 (F := Ideal) x0 x1) x2 x3 x4 e k := by
  rw [val_main_v23_apply, val_main_v22_apply, edge_first_layer, bias_edge_hid, zero_edge]
  rfl

/-- The edge stage of the reference is the specification's edge function. -/
theorem ref_edge (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S160x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v27 (F := Ideal) x0 x1 x2 x3 x4 x5 x6
      = Cert.Gnn.edgeWhole (val_main_v10 (F := Ideal) x0 x1) (val_main_v17 (F := Ideal) x0 x1) x2 x3 x4 x5 x6 := by
  funext i
  obtain ⟨e, j, rfl⟩ : ∃ (e : Fin 800000) (j : Fin 64), i = ix2 e j := ⟨i 0, i 1, eq_ix2 i⟩
  have h : val_main_v24 (F := Ideal) x0 x1 x2 x3 x4 x5 (ix2 e j)
      = ∑ k : Fin 64, Cert.Gnn.edgeHidWhole (val_main_v10 (F := Ideal) x0 x1) (val_main_v17 (F := Ideal) x0 x1)
          x2 x3 x4 e k * x5 (ix2 k j) :=
    (val_main_v24_apply x0 x1 x2 x3 x4 x5 (ix2 e j)).trans (Finset.sum_congr rfl fun k _ => by
      rw [left_edge_out, right_edge_out, edge_hidden])
  rw [Cert.Gnn.edgeWhole_ix2, val_main_v27_apply, h, bias_edge_out]
  rfl

/-! ## The node stage -/

/-- The joined node row inside each of its two stretches. -/
theorem node_row_first (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S160x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (n : Fin 50000) (l : Fin 64) :
    val_main_v36 (F := Ideal) x0 x1 x2 x3 x4 x5 x6 (ix2 n ⟨l.val, by omega⟩) = x0 (ix2 n l) := by
  unfold val_main_v36
  generalize val_main_v35 (F := Ideal) x0 x1 x2 x3 x4 x5 x6 = y1
  exact joined2_first x0 y1 _ n l

theorem node_row_second (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S160x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (n : Fin 50000) (l : Fin 64) :
    val_main_v36 (F := Ideal) x0 x1 x2 x3 x4 x5 x6 (ix2 n ⟨64 + l.val, by omega⟩)
      = val_main_v35 (F := Ideal) x0 x1 x2 x3 x4 x5 x6 (ix2 n l) := by
  unfold val_main_v36
  generalize val_main_v35 (F := Ideal) x0 x1 x2 x3 x4 x5 x6 = y1
  exact joined2_second x0 y1 _ n l

/-- The first layer's product at (n, k): the sum over the joined row, cut into its two stretches. -/
theorem node_first_layer (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S160x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S128x64, .f32⟩ : BufTy).Contents (Elt Ideal)) (n : Fin 50000) (k : Fin 64) :
    val_main_v37 (F := Ideal) x0 x1 x2 x3 x4 x5 x6 x7 (ix2 n k)
      = (∑ l : Fin 64, x0 (ix2 n l) * x7 (ix2 ⟨l.val, by omega⟩ k))
        + (∑ l : Fin 64, val_main_v35 (F := Ideal) x0 x1 x2 x3 x4 x5 x6 (ix2 n l) * x7 (ix2 ⟨64 + l.val, by omega⟩ k)) := by
  have h : val_main_v37 (F := Ideal) x0 x1 x2 x3 x4 x5 x6 x7 (ix2 n k)
      = ∑ l : Fin 128, val_main_v36 (F := Ideal) x0 x1 x2 x3 x4 x5 x6 (ix2 n l) * x7 (ix2 l k) :=
    (val_main_v37_apply x0 x1 x2 x3 x4 x5 x6 x7 (ix2 n k)).trans (Finset.sum_congr rfl fun l _ => by
      rw [left_node_hid, right_node_hid])
  rw [h, sum_128]
  refine congrArg₂ (· + ·) ?_ ?_
  · exact Finset.sum_congr rfl fun l _ => by rw [node_row_first]
  · exact Finset.sum_congr rfl fun l _ => by rw [node_row_second]

/-- The hidden unit k of node n. -/
theorem node_hidden (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S160x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (n : Fin 50000) (k : Fin 64) :
    val_main_v41 (F := Ideal) x0 x1 x2 x3 x4 x5 x6 x7 x8 (ix2 n k)
      = Cert.Gnn.nodeHidWhole x0 (val_main_v35 (F := Ideal) x0 x1 x2 x3 x4 x5 x6) x7 x8 n k := by
  rw [val_main_v41_apply, val_main_v40_apply, node_first_layer, bias_node_hid, zero_node_hid]
  rfl

/-- The node stage of the reference is the specification's node function. -/
theorem ref_node (x0 : (⟨S50000x64, .f32⟩ : BufTy).Contents (Elt Ideal)) (x1 : (⟨S2x800000, .i32⟩ : BufTy).Contents (Elt Ideal)) (x2 : (⟨S800000x32, .f32⟩ : BufTy).Contents (Elt Ideal)) (x3 : (⟨S160x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v47 (F := Ideal) x0 x1 x2 x3 x4 x5 x6 x7 x8 x9 x10
      = Cert.Gnn.nodeWhole x0 (val_main_v35 (F := Ideal) x0 x1 x2 x3 x4 x5 x6) x7 x8 x9 x10 := by
  funext i
  obtain ⟨n, j, rfl⟩ : ∃ (n : Fin 50000) (j : Fin 64), i = ix2 n j := ⟨i 0, i 1, eq_ix2 i⟩
  have h : val_main_v42 (F := Ideal) x0 x1 x2 x3 x4 x5 x6 x7 x8 x9 (ix2 n j)
      = ∑ k : Fin 64, Cert.Gnn.nodeHidWhole x0 (val_main_v35 (F := Ideal) x0 x1 x2 x3 x4 x5 x6) x7 x8 n k
          * x9 (ix2 k j) :=
    (val_main_v42_apply x0 x1 x2 x3 x4 x5 x6 x7 x8 x9 (ix2 n j)).trans (Finset.sum_congr rfl fun k _ => by
      rw [left_node_out, right_node_out, node_hidden])
  rw [Cert.Gnn.nodeWhole_ix2, val_main_v47_apply, val_main_v46_apply, val_main_v45_apply, h, bias_node_out,
    zero_node_out]
  rfl

end Cert.ReferenceIdeal.RefValue

end
-- ==== Proof.lean ====
/-
  One message-passing layer of a graph network — every edge's two endpoint rows and its attributes through a
  two-layer perceptron, the edge outputs summed into their target nodes, every node's features and its sum through
  a second two-layer perceptron with a residual and a rectifier — computed by a tiled program (two grids of
  5000-row blocks between host operations, its first-layer products taken one row block of the weights at a time)
  and by the plain formula (one product with the concatenated inputs), gives the same array at the extended reals.

  The three frames: the two tiled programs' are the generated frame certificates; the plain program's is its
  generated run with the result dropped. No operation of the tiled program was rewritten by the idealization, so
  nothing is to be preserved. The value claim: the tiled program's result is `kout` of the argument arrays
  (Proof/KValue.lean, over what each grid's blocks hold: Proof/EdgeRegion.lean, Proof/NodeRegion.lean), and so is the
  plain program's (Proof/Bridge.lean, over its stages: Proof/RefStages.lean). The one algebraic law between the two
  is that a sum over the concatenated axis is the sum of the sums over its pieces, which needs no finiteness: the
  precondition is never opened.
-/
import proofs.«131791_j60619168416170_2_alg».proof.Defs
import proofs.«131791_j60619168416170_2_alg».proof.Proof.Gen.Kernel
import proofs.«131791_j60619168416170_2_alg».proof.Proof.Gen.Kernel.Skeleton
import proofs.«131791_j60619168416170_2_alg».proof.Proof.Gen.Kernel.Launch
import proofs.«131791_j60619168416170_2_alg».proof.Proof.Gen.Kernel.Points
import proofs.«131791_j60619168416170_2_alg».proof.Proof.Gen.Kernel.Frame
import proofs.«131791_j60619168416170_2_alg».proof.Proof.Gen.KernelIdeal
import proofs.«131791_j60619168416170_2_alg».proof.Proof.Gen.KernelIdeal.Skeleton
import proofs.«131791_j60619168416170_2_alg».proof.Proof.Gen.KernelIdeal.Launch
import proofs.«131791_j60619168416170_2_alg».proof.Proof.Gen.KernelIdeal.Points
import proofs.«131791_j60619168416170_2_alg».proof.Proof.Gen.KernelIdeal.Frame
import proofs.«131791_j60619168416170_2_alg».proof.Proof.Gen.ReferenceIdeal
import proofs.«131791_j60619168416170_2_alg».proof.Proof.Gen.ReferenceIdeal.Run
import proofs.«131791_j60619168416170_2_alg».proof.Proof.Gen.ReferenceIdeal.Read
import proofs.«131791_j60619168416170_2_alg».proof.Proof.Gen.Pre_finite_inputs
import proofs.«131791_j60619168416170_2_alg».proof.Proof.KValue
import proofs.«131791_j60619168416170_2_alg».proof.Proof.Bridge
import proofs.«131791_j60619168416170_2_alg».proof.Proof.EdgeRegion
import proofs.«131791_j60619168416170_2_alg».proof.Proof.NodeRegion
import proofs.«131791_j60619168416170_2_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The plain program's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with their result array at `kout` of the argument arrays, from memories that agree on them. -/
theorem algebraic : Cert.algebraic_KernelIdeal_ReferenceIdeal := by
  intro m ρ m' ρ' _ hagree
  refine ⟨_, Cert.KernelIdeal.KValue.run m ρ Cert.KernelIdeal.EdgeRegion.edge_final Cert.KernelIdeal.NodeRegion.node_final, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v47_eq, h0, h1, h2, h3, h4, h5, h6, h7, h8, h9, h10]
  exact Cert.ReferenceIdeal.Bridge.ref_eq_kout Cert.ReferenceIdeal.RefValue.ref_edge Cert.ReferenceIdeal.RefValue.ref_node _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
